-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S50000 : Shape := ⟨1, ![50000]⟩
abbrev S128x256 : Shape := ⟨2, ![128, 256]⟩
abbrev S256 : Shape := ⟨1, ![256]⟩
abbrev S256x16 : Shape := ⟨2, ![256, 16]⟩
abbrev S16 : Shape := ⟨1, ![16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg6 : FVec F S256x16 .f32) (main_arg7 : FVec F S256x16 .f32) (main_arg8 : FVec F S16 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x16 .f32 := Host.absf main_arg6
  let main_cst_6 : FVec F S_ .f32 := constant S_ .f32 0x7F800000#32
  let main_v20 : FVec F S256x16 .f32 := broadcastInDim S256x16 ![] bcast_S_S256x16 main_cst_6
  let main_v21 : IVec S256x16 1 := cmpf .olt main_v19 main_v20
  let main_c_7 : IVec S_ 1 := constantI S_ 1 1#1
  let main_v22 : IVec S_ 1 := (fun x v => Host.reduce IntOp.andi x v reducesTo_S256x16_S_d0_1 h_S_) main_v21 main_c_7
  let main_v23 : IVec S_ 1 := andi main_v18 main_v22
  let main_v24 : FVec F S256x16 .f32 := Host.absf main_arg7
  let main_cst_8 : FVec F S_ .f32 := constant S_ .f32 0x7F800000#32
  let main_v25 : FVec F S256x16 .f32 := broadcastInDim S256x16 ![] bcast_S_S256x16 main_cst_8
  let main_v26 : IVec S256x16 1 := cmpf .olt main_v24 main_v25
  let main_c_9 : IVec S_ 1 := constantI S_ 1 1#1
  let main_v27 : IVec S_ 1 := (fun x v => Host.reduce IntOp.andi x v reducesTo_S256x16_S_d0_1 h_S_) main_v26 main_c_9
  let main_v28 : IVec S_ 1 := andi main_v23 main_v27
  let main_v29 : FVec F S16 .f32 := Host.absf main_arg8
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S50000x128 .f32) (main_arg1 : IVec S2x600000 32) (main_arg2 : IVec S50000 32) (main_arg3 : FVec F S128x256 .f32) (main_arg4 : FVec F S128x256 .f32) (main_arg5 : FVec F S256 .f32) (main_arg6 : FVec F S256x16 .f32) (main_arg7 : FVec F S256x16 .f32) (main_arg8 : FVec F S16 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_v13 main_v16
-- ==== Kernel.lean ====
abbrev S50000x128 : Shape := ⟨2, ![50000, 128]⟩
abbrev S2x600000 : Shape := ⟨2, ![2, 600000]⟩
abbrev S50000 : Shape := ⟨1, ![50000]⟩
abbrev S128x256 : Shape := ⟨2, ![128, 256]⟩
abbrev S256 : Shape := ⟨1, ![256]⟩
abbrev S256x16 : Shape := ⟨2, ![256, 16]⟩
abbrev S16 : Shape := ⟨1, ![16]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S50000x1 : Shape := ⟨2, ![50000, 1]⟩
abbrev S600000x128 : Shape := ⟨2, ![600000, 128]⟩
abbrev S50000x256 : Shape := ⟨2, ![50000, 256]⟩
abbrev S600000x256 : Shape := ⟨2, ![600000, 256]⟩
abbrev S50000x16 : Shape := ⟨2, ![50000, 16]⟩
abbrev S64x16 : Shape := ⟨2, ![64, 16]⟩
abbrev S64 : Shape := ⟨1, ![64]⟩
abbrev S64x1 : Shape := ⟨2, ![64, 1]⟩
abbrev S5000x128 : Shape := ⟨2, ![5000, 128]⟩
abbrev S5000x1 : Shape := ⟨2, ![5000, 1]⟩
abbrev S5000x256 : Shape := ⟨2, ![5000, 256]⟩
abbrev S1x256 : Shape := ⟨2, ![1, 256]⟩
abbrev S2000x256 : Shape := ⟨2, ![2000, 256]⟩
abbrev S2000x1 : Shape := ⟨2, ![2000, 1]⟩
abbrev S2000x16 : Shape := ⟨2, ![2000, 16]⟩
abbrev S1x16 : Shape := ⟨2, ![1, 16]⟩

abbrev nBuf : Space → Nat
  | .hbm => 88
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S50000, .i32⟩
  | .hbm, ⟨3, _⟩ => ⟨S128x256, .f32⟩
  | .hbm, ⟨4, _⟩ => ⟨S128x256, .f32⟩
  | .hbm, ⟨5, _⟩ => ⟨S256, .f32⟩
  | .hbm, ⟨6, _⟩ => ⟨S256x16, .f32⟩
  | .hbm, ⟨7, _⟩ => ⟨S256x16, .f32⟩
  | .hbm, ⟨8, _⟩ => ⟨S16, .f32⟩
  | .hbm, ⟨9, _⟩ => ⟨S1x600000, .i32⟩
  | .hbm, ⟨10, _⟩ => ⟨S600000, .i32⟩
  | .hbm, ⟨11, _⟩ => ⟨S1x600000, .i32⟩
  | .hbm, ⟨12, _⟩ => ⟨S600000, .i32⟩
  | .hbm, ⟨13, _⟩ => ⟨S_, .f32⟩
  | .hbm, ⟨14, _⟩ => ⟨S600000, .f32⟩
  | .hbm, ⟨15, _⟩ => ⟨S_, .f32⟩
  | .hbm, ⟨16, _⟩ => ⟨S50000, .f32⟩
  | .hbm, ⟨17, _⟩ => ⟨S600000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S50000x128, .bf16⟩
  | .hbm, ⟨27, _⟩ => ⟨S_, .i32⟩
  | .hbm, ⟨28, _⟩ => ⟨S600000, .i32⟩
  | .hbm, ⟨29, _⟩ => ⟨S600000, .i1⟩
  | .hbm, ⟨30, _⟩ => ⟨S_, .i32⟩
  | .hbm, ⟨31, _⟩ => ⟨S600000, .i32⟩
  | .hbm, ⟨32, _⟩ => ⟨S600000, .i32⟩
  | .hbm, ⟨33, _⟩ => ⟨S600000, .i32⟩
  | .hbm, ⟨34, _⟩ => ⟨S600000x1, .i32⟩
  | .hbm, ⟨35, _⟩ => ⟨S600000x128, .bf16⟩
  | .hbm, ⟨36, _⟩ => ⟨S600000x128, .f32⟩
  | .hbm, ⟨37, _⟩ => ⟨S_, .f32⟩
  | .hbm, ⟨38, _⟩ => ⟨S50000x128, .f32⟩
  | .hbm, ⟨39, _⟩ => ⟨S600000x1, .i32⟩
  | .hbm, ⟨40, _⟩ => ⟨S50000x128, .f32⟩
  | .hbm, ⟨41, _⟩ => ⟨S50000x256, .bf16⟩
  | .hbm, ⟨42, _⟩ => ⟨S_, .i32⟩
  | .hbm, ⟨43, _⟩ => ⟨S600000, .i32⟩
  | .hbm, ⟨44, _⟩ => ⟨S600000, .i1⟩
  | .hbm, ⟨45, _⟩ => ⟨S_, .i32⟩
  | .hbm, ⟨46, _⟩ => ⟨S600000, .i32⟩
  | .hbm, ⟨47, _⟩ => ⟨S600000, .i32⟩
  | .hbm, ⟨48, _⟩ => ⟨S600000, .i32⟩
  | .hbm, ⟨49, _⟩ => ⟨S600000x1, .i32⟩
  | .hbm, ⟨50, _⟩ => ⟨S600000x256, .bf16⟩
  | .hbm, ⟨51, _⟩ => ⟨S600000x256, .f32⟩
  | .hbm, ⟨52, _⟩ => ⟨S_, .f32⟩
  | .hbm, ⟨53, _⟩ => ⟨S50000x256, .f32⟩
  | .hbm, ⟨54, _⟩ => ⟨S600000x1, .i32⟩
  | .hbm, ⟨55, _⟩ => ⟨S50000x256, .f32⟩
  | .hbm, ⟨56, _⟩ => ⟨S50000x16, .f32⟩
  | .hbm, ⟨57, _⟩ => ⟨S_, .f32⟩
  | .hbm, ⟨58, _⟩ => ⟨S64x16, .f32⟩
  | .hbm, ⟨59, _⟩ => ⟨S50000x1, .i32⟩
  | .hbm, ⟨60, _⟩ => ⟨S64x16, .f32⟩
  | .hbm, ⟨61, _⟩ => ⟨S_, .f32⟩
  | .hbm, ⟨62, _⟩ => ⟨S50000, .f32⟩
  | .hbm, ⟨63, _⟩ => ⟨S_, .f32⟩
  | .hbm, ⟨64, _⟩ => ⟨S64, .f32⟩
  | .hbm, ⟨65, _⟩ => ⟨S50000x1, .i32⟩
  | .hbm, ⟨66, _⟩ => ⟨S64, .f32⟩
  | .hbm, ⟨67, _⟩ => ⟨S_, .f32⟩
  | .hbm, ⟨68, _⟩ => ⟨S64, .f32⟩
  | .hbm, ⟨69, _⟩ => ⟨S64, .f32⟩
  | .hbm, ⟨70, _⟩ => ⟨S64x1, .f32⟩
  | .hbm, ⟨71, _⟩ => ⟨S64x16, .f32⟩
  | .hbm, ⟨72, _⟩ => ⟨S64x16, .f32⟩
  | .hbm, ⟨73, _⟩ => ⟨S_, .f32⟩
  | .hbm, ⟨74, _⟩ => ⟨S64, .f32⟩
  | .hbm, ⟨75, _⟩ => ⟨S_, .f32⟩
  | .hbm, ⟨76, _⟩ => ⟨S64, .f32⟩
  | .hbm, ⟨77, _⟩ => ⟨S64, .f32⟩
  | .hbm, ⟨78, _⟩ => ⟨S64x1, .f32⟩
  | .hbm, ⟨79, _⟩ => ⟨S64x16, .f32⟩
  | .hbm, ⟨80, _⟩ => ⟨S64x16, .f32⟩
  | .hbm, ⟨81, _⟩ => ⟨S64x16, .f32⟩
  | .hbm, ⟨82, _⟩ => ⟨S_, .f32⟩
  | .hbm, ⟨83, _⟩ => ⟨S64, .f32⟩
  | .hbm, ⟨84, _⟩ => ⟨S64x1, .f32⟩
  | .hbm, ⟨85, _⟩ => ⟨S64x1, .f32⟩
  | .hbm, ⟨86, _⟩ => ⟨S64x16, .f32⟩
  | .hbm, ⟨87, _⟩ => ⟨S64x16, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .bf16⟩
  | .local _ .vmem, ⟨5, _⟩ => ⟨S5000x128, .bf16⟩
  | .local _ .vmem, ⟨6, _⟩ => ⟨S128x256, .f32⟩
  | .local _ .vmem, ⟨7, _⟩ => ⟨S128x256, .f32⟩
  | .local _ .vmem, ⟨8, _⟩ => ⟨S256, .f32⟩
  | .local _ .vmem, ⟨9, _⟩ => ⟨S5000x256, .bf16⟩
  | .local _ .vmem, ⟨10, _⟩ => ⟨S5000x256, .bf16⟩
  | .local _ .vmem, ⟨11, _⟩ => ⟨S2000x256, .f32⟩
  | .local _ .vmem, ⟨12, _⟩ => ⟨S2000x256, .f32⟩
  | .local _ .vmem, ⟨13, _⟩ => ⟨S2000x1, .f32⟩
  | .local _ .vmem, ⟨14, _⟩ => ⟨S2000x1, .f32⟩
  | .local _ .vmem, ⟨15, _⟩ => ⟨S2000x256, .bf16⟩
  | .local _ .vmem, ⟨16, _⟩ => ⟨S2000x256, .bf16⟩
  | .local _ .vmem, ⟨17, _⟩ => ⟨S256x16, .f32⟩
  | .local _ .vmem, ⟨18, _⟩ => ⟨S256x16, .f32⟩
  | .local _ .vmem, ⟨19, _⟩ => ⟨S16, .f32⟩
  | .local _ .vmem, ⟨20, _⟩ => ⟨S2000x16, .f32⟩
  | .local _ .vmem, ⟨21, _⟩ => ⟨S2000x16, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_cst : Ref sig .tc := ⟨.hbm, 13, rfl⟩
abbrev main_call0_v4 : Ref sig .tc := ⟨.hbm, 14, rfl⟩
abbrev main_call0_cst_0 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_cst_1 : Ref sig .tc := ⟨.hbm, 19, rfl⟩
abbrev main_call0_v8 : Ref sig .tc := ⟨.hbm, 20, rfl⟩
abbrev main_call0_v9 : Ref sig .tc := ⟨.hbm, 21, rfl⟩
abbrev main_call0_cst_2 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_c : Ref sig .tc := ⟨.hbm, 27, rfl⟩
abbrev main_call0_v14 : Ref sig .tc := ⟨.hbm, 28, rfl⟩
abbrev main_call0_v15 : Ref sig .tc := ⟨.hbm, 29, rfl⟩
abbrev main_call0_c_3 : Ref sig .tc := ⟨.hbm, 30, rfl⟩
abbrev main_call0_v16 : Ref sig .tc := ⟨.hbm, 31, rfl⟩
abbrev main_call0_v17 : Ref sig .tc := ⟨.hbm, 32, rfl⟩
abbrev main_call0_v18 : Ref sig .tc := ⟨.hbm, 33, rfl⟩
abbrev main_call0_v19 : Ref sig .tc := ⟨.hbm, 34, rfl⟩
abbrev main_call0_v20 : Ref sig .tc := ⟨.hbm, 35, rfl⟩
abbrev main_call0_v21 : Ref sig .tc := ⟨.hbm, 36, rfl⟩
abbrev main_call0_cst_4 : Ref sig .tc := ⟨.hbm, 37, rfl⟩
abbrev main_call0_v22 : Ref sig .tc := ⟨.hbm, 38, rfl⟩
abbrev main_call0_v23 : Ref sig .tc := ⟨.hbm, 39, rfl⟩
abbrev main_call0_v24 : Ref sig .tc := ⟨.hbm, 40, rfl⟩
abbrev main_call0_v25 : Ref sig .tc := ⟨.hbm, 41, rfl⟩
abbrev main_call0_c_5 : Ref sig .tc := ⟨.hbm, 42, rfl⟩
abbrev main_call0_v26 : Ref sig .tc := ⟨.hbm, 43, rfl⟩
abbrev main_call0_v27 : Ref sig .tc := ⟨.hbm, 44, rfl⟩
abbrev main_call0_c_6 : Ref sig .tc := ⟨.hbm, 45, rfl⟩
abbrev main_call0_v28 : Ref sig .tc := ⟨.hbm, 46, rfl⟩
abbrev main_call0_v29 : Ref sig .tc := ⟨.hbm, 47, rfl⟩
abbrev main_call0_v30 : Ref sig .tc := ⟨.hbm, 48, rfl⟩
abbrev main_call0_v31 : Ref sig .tc := ⟨.hbm, 49, rfl⟩
abbrev main_call0_v32 : Ref sig .tc := ⟨.hbm, 50, rfl⟩
abbrev main_call0_v33 : Ref sig .tc := ⟨.hbm, 51, rfl⟩
abbrev main_call0_cst_7 : Ref sig .tc := ⟨.hbm, 52, rfl⟩
abbrev main_call0_v34 : Ref sig .tc := ⟨.hbm, 53, rfl⟩
abbrev main_call0_v35 : Ref sig .tc := ⟨.hbm, 54, rfl⟩
abbrev main_call0_v36 : Ref sig .tc := ⟨.hbm, 55, rfl⟩
abbrev main_call0_v37 : Ref sig .tc := ⟨.hbm, 56, rfl⟩
abbrev main_call0_cst_8 : Ref sig .tc := ⟨.hbm, 57, rfl⟩
abbrev main_call0_v38 : Ref sig .tc := ⟨.hbm, 58, rfl⟩
abbrev main_call0_v39 : Ref sig .tc := ⟨.hbm, 59, rfl⟩
abbrev main_call0_v40 : Ref sig .tc := ⟨.hbm, 60, rfl⟩
abbrev main_call0_cst_9 : Ref sig .tc := ⟨.hbm, 61, rfl⟩
abbrev main_call0_v41 : Ref sig .tc := ⟨.hbm, 62, rfl⟩
abbrev main_call0_cst_10 : Ref sig .tc := ⟨.hbm, 63, rfl⟩
abbrev main_call0_v42 : Ref sig .tc := ⟨.hbm, 64, rfl⟩
abbrev main_call0_v43 : Ref sig .tc := ⟨.hbm, 65, rfl⟩
abbrev main_call0_v44 : Ref sig .tc := ⟨.hbm, 66, rfl⟩
abbrev main_call0_cst_11 : Ref sig .tc := ⟨.hbm, 67, rfl⟩
abbrev main_call0_v45 : Ref sig .tc := ⟨.hbm, 68, rfl⟩
abbrev main_call0_v46 : Ref sig .tc := ⟨.hbm, 69, rfl⟩
abbrev main_call0_v47 : Ref sig .tc := ⟨.hbm, 70, rfl⟩
abbrev main_call0_v48 : Ref sig .tc := ⟨.hbm, 71, rfl⟩
abbrev main_call0_v49 : Ref sig .tc := ⟨.hbm, 72, rfl⟩
abbrev main_call0_call0_cst : Ref sig .tc := ⟨.hbm, 73, rfl⟩
abbrev main_call0_call0_v0 : Ref sig .tc := ⟨.hbm, 74, rfl⟩
abbrev main_call0_call0_cst_0 : Ref sig .tc := ⟨.hbm, 75, rfl⟩
abbrev main_call0_call0_v1 : Ref sig .tc := ⟨.hbm, 76, rfl⟩
abbrev main_call0_call0_v2 : Ref sig .tc := ⟨.hbm, 77, rfl⟩
abbrev main_call0_call0_v3 : Ref sig .tc := ⟨.hbm, 78, rfl⟩
abbrev main_call0_call0_v4 : Ref sig .tc := ⟨.hbm, 79, rfl⟩
abbrev main_call0_call0_v5 : Ref sig .tc := ⟨.hbm, 80, rfl⟩
abbrev main_call0_call0_v6 : Ref sig .tc := ⟨.hbm, 81, rfl⟩
abbrev main_call0_call0_cst_1 : Ref sig .tc := ⟨.hbm, 82, rfl⟩
abbrev main_call0_call0_v7 : Ref sig .tc := ⟨.hbm, 83, rfl⟩
abbrev main_call0_call0_v8 : Ref sig .tc := ⟨.hbm, 84, rfl⟩
abbrev main_call0_call0_v9 : Ref sig .tc := ⟨.hbm, 85, rfl⟩
abbrev main_call0_call0_v10 : Ref sig .tc := ⟨.hbm, 86, rfl⟩
abbrev main_v0 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x16 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bitsLt_bf16_f32 : FTy.bits .bf16 < FTy.bits .f32
  bcast_S_S50000x128 : S_.BroadcastsInDim S50000x128 (![] : Fin 0 → Fin S50000x128.rank)
  bcast_S_S50000x256 : S_.BroadcastsInDim S50000x256 (![] : Fin 0 → Fin S50000x256.rank)
  bcast_S_S64x16 : S_.BroadcastsInDim S64x16 (![] : Fin 0 → Fin S64x16.rank)
  bcast_S_S64 : S_.BroadcastsInDim S64 (![] : Fin 0 → Fin S64.rank)
  bcast_S64_S64x1_0 : S64.BroadcastsInDim S64x1 (![0] : Fin 1 → Fin S64x1.rank)
  bcast_S64x1_S64x16_0_1 : S64x1.BroadcastsInDim S64x16 (![0, 1] : Fin 2 → Fin S64x16.rank)
  reducesTo_S64x16_S64_d1 : S64x16.ReducesTo [1] S64
  h_S_ : 0 < S_.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  packedbf16_S5000x256_S5000x256_0_0 : (Rect.unit (s := S5000x256) ![0, 0] S5000x256.size inb_S5000x256_S5000x256_0_0).PackedRows (EltTy.packing .bf16)
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S256x16_S256x16_0_0 : ∀ a, (![0, 0] : Fin 2 → Nat) a + S256x16.size a ≤ S256x16.size a
  h_S256x16 : 0 < S256x16.numel
  inb_S16_S16_0 : ∀ a, (![0] : Fin 1 → Nat) a + S16.size a ≤ S16.size a
  h_S16 : 0 < S16.numel
  shapeCasts_S16_S1x16 : S16.ShapeCasts S1x16
  broadcasts_S1x16_S2000x16 : S1x16.Broadcasts S2000x16
  inb_S2000x16_S2000x16_0_0 : ∀ a, (![0, 0] : Fin 2 → Nat) a + S2000x16.size a ≤ S2000x16.size a
  h_S2000x16 : 0 < S2000x16.numel
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  scatter_S64x16_S50000x1_S50000x16_1_0_0_1_wf : ScatterDims.WF S64x16 S50000x1 S50000x16 [1] [0] [0] 1
  scatter_S64_S50000x1_S50000_n_0_0_1_wf : ScatterDims.WF S64 S50000x1 S50000 [] [0] [0] 1
  dot_S5000x128_S128x256_S5000x256_1_0_0_1_n_n_wf : DotDims.WF S5000x128 S128x256 S5000x256 [1] [0] [0] [1] [] []
  dot_S2000x256_S256x16_S2000x16_1_0_0_1_n_n_wf : DotDims.WF S2000x256 S256x16 S2000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .bf16 = 32 ∨ (Rect.block (s := S50000x128) S5000x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x256.size a ≤ S50000x256.size a
  hwx0_6 : ∀ i : grid0.Coords, EltTy.bits .bf16 = 32 ∨ (Rect.block (s := S50000x256) S5000x256.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .bf16 = 32 ∨ (Rect.block (s := S50000x256) S2000x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x16.size a ≤ S256x16.size a
  hwx1_3 : ∀ i : grid1.Coords, EltTy.bits .f32 = 32 ∨ (Rect.block (s := S256x16) S256x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x16.size a ≤ S256x16.size a
  hwx1_4 : ∀ i : grid1.Coords, EltTy.bits .f32 = 32 ∨ (Rect.block (s := S256x16) S256x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16.size a ≤ S16.size a
  hwx1_5 : ∀ i : grid1.Coords, EltTy.bits .f32 = 32 ∨ (Rect.block (s := S16) S16.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x16.size a ≤ S50000x16.size a
  hwx1_6 : ∀ i : grid1.Coords, EltTy.bits .f32 = 32 ∨ (Rect.block (s := S50000x16) S2000x16.size (cc1_transform_6 i) (hinb1_6 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def scatter_S64x16_S50000x1_S50000x16_1_0_0_1 : ScatterDims S64x16 S50000x1 S50000x16 where
  updateWindowDims := [1]
  insertedWindowDims := [0]
  scatterDimsToOperandDims := [0]
  indexVectorDim := 1
  wf := scatter_S64x16_S50000x1_S50000x16_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S2000x256_S256x16_S2000x16_1_0_0_1_n_n : DotDims S2000x256 S256x16 S2000x16 where
  lhsContracting := [1]
  rhsContracting := [0]
  lhsNonContracting := [0]
  rhsNonContracting := [1]
  lhsBatch := []
  rhsBatch := []
  wf := dot_S2000x256_S256x16_S2000x16_1_0_0_1_n_n_wf

abbrev win0_0 : Pipeline.Window sig grid0 :=
  Pipeline.Window.ofSpec (Memref.whole main_call0_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v12) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v13) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v25) S5000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_call0_v36) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v12) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v25) S2000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S256x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S256x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v37) S2000x16.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S50000 : Shape := ⟨1, ![50000]⟩
abbrev S128x256 : Shape := ⟨2, ![128, 256]⟩
abbrev S256 : Shape := ⟨1, ![256]⟩
abbrev S256x16 : Shape := ⟨2, ![256, 16]⟩
abbrev S16 : Shape := ⟨1, ![16]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩
abbrev S50000x256 : Shape := ⟨2, ![50000, 256]⟩
abbrev S1x256 : Shape := ⟨2, ![1, 256]⟩
abbrev S600000x256 : Shape := ⟨2, ![600000, 256]⟩
abbrev S50000x16 : Shape := ⟨2, ![50000, 16]⟩
abbrev S1x16 : Shape := ⟨2, ![1, 16]⟩
abbrev S64x16 : Shape := ⟨2, ![64, 16]⟩
abbrev S64 : Shape := ⟨1, ![64]⟩
abbrev S64x1 : Shape := ⟨2, ![64, 1]⟩

abbrev nBuf : Space → Nat
  | .hbm => 116
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S50000, .i32⟩
  | .hbm, ⟨3, _⟩ => ⟨S128x256, .f32⟩
  | .hbm, ⟨4, _⟩ => ⟨S128x256, .f32⟩
  | .hbm, ⟨5, _⟩ => ⟨S256, .f32⟩
  | .hbm, ⟨6, _⟩ => ⟨S256x16, .f32⟩
  | .hbm, ⟨7, _⟩ => ⟨S256x16, .f32⟩
  | .hbm, ⟨8, _⟩ => ⟨S16, .f32⟩
  | .hbm, ⟨9, _⟩ => ⟨S1x600000, .i32⟩
  | .hbm, ⟨10, _⟩ => ⟨S600000, .i32⟩
  | .hbm, ⟨11, _⟩ => ⟨S1x600000, .i32⟩
  | .hbm, ⟨12, _⟩ => ⟨S600000, .i32⟩
  | .hbm, ⟨13, _⟩ => ⟨S_, .i32⟩
  | .hbm, ⟨14, _⟩ => ⟨S600000, .i32⟩
  | .hbm, ⟨15, _⟩ => ⟨S600000, .i1⟩
  | .hbm, ⟨16, _⟩ => ⟨S_, .i32⟩
  | .hbm, ⟨17, _⟩ => ⟨S600000, .i32⟩
  | .hbm, ⟨18, _⟩ => ⟨S600000, .i32⟩
  | .hbm, ⟨19, _⟩ => ⟨S600000, .i32⟩
  | .hbm, ⟨20, _⟩ => ⟨S600000x1, .i32⟩
  | .hbm, ⟨21, _⟩ => ⟨S600000x128, .f32⟩
  | .hbm, ⟨22, _⟩ => ⟨S_, .f32⟩
  | .hbm, ⟨23, _⟩ => ⟨S50000x128, .f32⟩
  | .hbm, ⟨24, _⟩ => ⟨S600000x1, .i32⟩
  | .hbm, ⟨25, _⟩ => ⟨S50000x128, .f32⟩
  | .hbm, ⟨26, _⟩ => ⟨S_, .f32⟩
  | .hbm, ⟨27, _⟩ => ⟨S600000, .f32⟩
  | .hbm, ⟨28, _⟩ => ⟨S_, .f32⟩
  | .hbm, ⟨29, _⟩ => ⟨S50000, .f32⟩
  | .hbm, ⟨30, _⟩ => ⟨S600000x1, .i32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000x128, .f32⟩
  | .hbm, ⟨37, _⟩ => ⟨S50000x128, .f32⟩
  | .hbm, ⟨38, _⟩ => ⟨S50000x256, .f32⟩
  | .hbm, ⟨39, _⟩ => ⟨S50000x256, .f32⟩
  | .hbm, ⟨40, _⟩ => ⟨S50000x256, .f32⟩
  | .hbm, ⟨41, _⟩ => ⟨S1x256, .f32⟩
  | .hbm, ⟨42, _⟩ => ⟨S50000x256, .f32⟩
  | .hbm, ⟨43, _⟩ => ⟨S50000x256, .f32⟩
  | .hbm, ⟨44, _⟩ => ⟨S_, .f32⟩
  | .hbm, ⟨45, _⟩ => ⟨S50000x256, .f32⟩
  | .hbm, ⟨46, _⟩ => ⟨S50000x256, .f32⟩
  | .hbm, ⟨47, _⟩ => ⟨S1x600000, .i32⟩
  | .hbm, ⟨48, _⟩ => ⟨S600000, .i32⟩
  | .hbm, ⟨49, _⟩ => ⟨S1x600000, .i32⟩
  | .hbm, ⟨50, _⟩ => ⟨S600000, .i32⟩
  | .hbm, ⟨51, _⟩ => ⟨S_, .i32⟩
  | .hbm, ⟨52, _⟩ => ⟨S600000, .i32⟩
  | .hbm, ⟨53, _⟩ => ⟨S600000, .i1⟩
  | .hbm, ⟨54, _⟩ => ⟨S_, .i32⟩
  | .hbm, ⟨55, _⟩ => ⟨S600000, .i32⟩
  | .hbm, ⟨56, _⟩ => ⟨S600000, .i32⟩
  | .hbm, ⟨57, _⟩ => ⟨S600000, .i32⟩
  | .hbm, ⟨58, _⟩ => ⟨S600000x1, .i32⟩
  | .hbm, ⟨59, _⟩ => ⟨S600000x256, .f32⟩
  | .hbm, ⟨60, _⟩ => ⟨S_, .f32⟩
  | .hbm, ⟨61, _⟩ => ⟨S50000x256, .f32⟩
  | .hbm, ⟨62, _⟩ => ⟨S600000x1, .i32⟩
  | .hbm, ⟨63, _⟩ => ⟨S50000x256, .f32⟩
  | .hbm, ⟨64, _⟩ => ⟨S_, .f32⟩
  | .hbm, ⟨65, _⟩ => ⟨S600000, .f32⟩
  | .hbm, ⟨66, _⟩ => ⟨S_, .f32⟩
  | .hbm, ⟨67, _⟩ => ⟨S50000, .f32⟩
  | .hbm, ⟨68, _⟩ => ⟨S600000x1, .i32⟩
  | .hbm, ⟨69, _⟩ => ⟨S50000, .f32⟩
  | .hbm, ⟨70, _⟩ => ⟨S_, .f32⟩
  | .hbm, ⟨71, _⟩ => ⟨S50000, .f32⟩
  | .hbm, ⟨72, _⟩ => ⟨S50000, .f32⟩
  | .hbm, ⟨73, _⟩ => ⟨S50000x1, .f32⟩
  | .hbm, ⟨74, _⟩ => ⟨S50000x256, .f32⟩
  | .hbm, ⟨75, _⟩ => ⟨S50000x256, .f32⟩
  | .hbm, ⟨76, _⟩ => ⟨S50000x16, .f32⟩
  | .hbm, ⟨77, _⟩ => ⟨S50000x16, .f32⟩
  | .hbm, ⟨78, _⟩ => ⟨S50000x16, .f32⟩
  | .hbm, ⟨79, _⟩ => ⟨S1x16, .f32⟩
  | .hbm, ⟨80, _⟩ => ⟨S50000x16, .f32⟩
  | .hbm, ⟨81, _⟩ => ⟨S50000x16, .f32⟩
  | .hbm, ⟨82, _⟩ => ⟨S_, .f32⟩
  | .hbm, ⟨83, _⟩ => ⟨S50000x16, .f32⟩
  | .hbm, ⟨84, _⟩ => ⟨S50000x16, .f32⟩
  | .hbm, ⟨85, _⟩ => ⟨S_, .f32⟩
  | .hbm, ⟨86, _⟩ => ⟨S64x16, .f32⟩
  | .hbm, ⟨87, _⟩ => ⟨S50000x1, .i32⟩
  | .hbm, ⟨88, _⟩ => ⟨S64x16, .f32⟩
  | .hbm, ⟨89, _⟩ => ⟨S_, .f32⟩
  | .hbm, ⟨90, _⟩ => ⟨S50000, .f32⟩
  | .hbm, ⟨91, _⟩ => ⟨S_, .f32⟩
  | .hbm, ⟨92, _⟩ => ⟨S64, .f32⟩
  | .hbm, ⟨93, _⟩ => ⟨S50000x1, .i32⟩
  | .hbm, ⟨94, _⟩ => ⟨S64, .f32⟩
  | .hbm, ⟨95, _⟩ => ⟨S_, .f32⟩
  | .hbm, ⟨96, _⟩ => ⟨S64, .f32⟩
  | .hbm, ⟨97, _⟩ => ⟨S64, .f32⟩
  | .hbm, ⟨98, _⟩ => ⟨S64x1, .f32⟩
  | .hbm, ⟨99, _⟩ => ⟨S64x16, .f32⟩
  | .hbm, ⟨100, _⟩ => ⟨S64x16, .f32⟩
  | .hbm, ⟨101, _⟩ => ⟨S_, .f32⟩
  | .hbm, ⟨102, _⟩ => ⟨S64, .f32⟩
  | .hbm, ⟨103, _⟩ => ⟨S_, .f32⟩
  | .hbm, ⟨104, _⟩ => ⟨S64, .f32⟩
  | .hbm, ⟨105, _⟩ => ⟨S64, .f32⟩
  | .hbm, ⟨106, _⟩ => ⟨S64x1, .f32⟩
  | .hbm, ⟨107, _⟩ => ⟨S64x16, .f32⟩
  | .hbm, ⟨108, _⟩ => ⟨S64x16, .f32⟩
  | .hbm, ⟨109, _⟩ => ⟨S64x16, .f32⟩
  | .hbm, ⟨110, _⟩ => ⟨S_, .f32⟩
  | .hbm, ⟨111, _⟩ => ⟨S64, .f32⟩
  | .hbm, ⟨112, _⟩ => ⟨S64x1, .f32⟩
  | .hbm, ⟨113, _⟩ => ⟨S64x1, .f32⟩
  | .hbm, ⟨114, _⟩ => ⟨S64x16, .f32⟩
  | .hbm, ⟨115, _⟩ => ⟨S64x16, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call0_cst : Ref sig .tc := ⟨.hbm, 44, rfl⟩
abbrev main_call0_v0 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_4 : Ref sig .tc := ⟨.hbm, 51, rfl⟩
abbrev main_v34 : Ref sig .tc := ⟨.hbm, 52, rfl⟩
abbrev main_v35 : Ref sig .tc := ⟨.hbm, 53, rfl⟩
abbrev main_c_5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_6 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_7 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_call1_cst : Ref sig .tc := ⟨.hbm, 82, rfl⟩
abbrev main_call1_v0 : Ref sig .tc := ⟨.hbm, 83, rfl⟩
abbrev main_v59 : Ref sig .tc := ⟨.hbm, 84, rfl⟩
abbrev main_cst_10 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_11 : Ref sig .tc := ⟨.hbm, 89, rfl⟩
abbrev main_v63 : Ref sig .tc := ⟨.hbm, 90, rfl⟩
abbrev main_cst_12 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_13 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_call2_cst : Ref sig .tc := ⟨.hbm, 101, rfl⟩
abbrev main_call2_v0 : Ref sig .tc := ⟨.hbm, 102, rfl⟩
abbrev main_call2_cst_0 : Ref sig .tc := ⟨.hbm, 103, rfl⟩
abbrev main_call2_v1 : Ref sig .tc := ⟨.hbm, 104, rfl⟩
abbrev main_call2_v2 : Ref sig .tc := ⟨.hbm, 105, rfl⟩
abbrev main_call2_v3 : Ref sig .tc := ⟨.hbm, 106, rfl⟩
abbrev main_call2_v4 : Ref sig .tc := ⟨.hbm, 107, rfl⟩
abbrev main_call2_v5 : Ref sig .tc := ⟨.hbm, 108, rfl⟩
abbrev main_call2_v6 : Ref sig .tc := ⟨.hbm, 109, rfl⟩
abbrev main_call2_cst_1 : Ref sig .tc := ⟨.hbm, 110, rfl⟩
abbrev main_call2_v7 : Ref sig .tc := ⟨.hbm, 111, rfl⟩
abbrev main_call2_v8 : Ref sig .tc := ⟨.hbm, 112, rfl⟩
abbrev main_call2_v9 : Ref sig .tc := ⟨.hbm, 113, rfl⟩
abbrev main_call2_v10 : Ref sig .tc := ⟨.hbm, 114, rfl⟩
abbrev main_v72 : Ref sig .tc := ⟨.hbm, 115, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  bcast_S_S50000x16 : S_.BroadcastsInDim S50000x16 (![] : Fin 0 → Fin S50000x16.rank)
  bcast_S_S64x16 : S_.BroadcastsInDim S64x16 (![] : Fin 0 → Fin S64x16.rank)
  bcast_S_S64 : S_.BroadcastsInDim S64 (![] : Fin 0 → Fin S64.rank)
  bcast_S64_S64x1_0 : S64.BroadcastsInDim S64x1 (![0] : Fin 1 → Fin S64x1.rank)
  bcast_S64x1_S64x16_0_1 : S64x1.BroadcastsInDim S64x16 (![0, 1] : Fin 2 → Fin S64x16.rank)
  reducesTo_S64x16_S64_d1 : S64x16.ReducesTo [1] S64
  h_S_ : 0 < S_.numel
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x256_S50000x256_1_0_0_1_n_n_wf : DotDims.WF S50000x128 S128x256 S50000x256 [1] [0] [0] [1] [] []
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  dot_S50000x256_S256x16_S50000x16_1_0_0_1_n_n_wf : DotDims.WF S50000x256 S256x16 S50000x16 [1] [0] [0] [1] [] []
  scatter_S64x16_S50000x1_S50000x16_1_0_0_1_wf : ScatterDims.WF S64x16 S50000x1 S50000x16 [1] [0] [0] 1
  scatter_S64_S50000x1_S50000_n_0_0_1_wf : ScatterDims.WF S64 S50000x1 S50000 [] [0] [0] 1

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S50000x256_S256x16_S50000x16_1_0_0_1_n_n : DotDims S50000x256 S256x16 S50000x16 where
  lhsContracting := [1]
  rhsContracting := [0]
  lhsNonContracting := [0]
  rhsNonContracting := [1]
  lhsBatch := []
  rhsBatch := []
  wf := dot_S50000x256_S256x16_S50000x16_1_0_0_1_n_n_wf
def scatter_S64x16_S50000x1_S50000x16_1_0_0_1 : ScatterDims S64x16 S50000x1 S50000x16 where
  updateWindowDims := [1]
  insertedWindowDims := [0]
  scatterDimsToOperandDims := [0]
  indexVectorDim := 1
  wf := scatter_S64x16_S50000x1_S50000x16_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

class Facts : Prop extends Facts₀ where

variable [Facts]
-- ==== Proof.KernelRun.lean ====
/-
  The idealized kernel program's run with its result buffer named.

  The program is five segments: host operations, the first layer's region, host operations, the second layer's
  region, host operations.  Running them from the launch memory ends, on every core, with every unscoped buffer at
  the fold of those segments over the launch contents: each stretch of host operations applies its operations'
  functions, each region replaces its output array by what its grid points wrote back.  Reading that final
  valuation at the result buffer and at the nine argument buffers gives the run used by the value claim; the
  arguments' buffers walk back through the fold to the launch memory because nothing writes them.
-/
import proofs.«173547_j64768106823755_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and in its final state every unscoped
    buffer of every core holds the last boundary's contents: the fold of the five segments over the launch memory. -/
theorem run_valuation : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The run read at the result buffer and at the arguments: the result at the last boundary's contents, each
    argument as launched. -/
theorem run : θ_run defs (onTc (τ := τ) (main (F := F))) ⟨m, fun _ => 0, ρ⟩ (fun r => ∀ c : Dev nD,
      r.2.mem ((c.tc : Thread nD τ).loc main_v0) = W5 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
      ⟨h c _ (mem_uc main_v0 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c)⟩)
    (run_valuation m ρ)

end Cert.KernelIdeal.ValueRun

end
-- ==== Proof.LibMatmul.lean ====
/-
  A matrix product with one contracted axis, accumulated into zero, read at one entry.

  Over the extended reals the product of an A by K matrix and a K by B matrix at entry (p, q) is the sum over k of
  l (p, k) r (k, q): the accumulator is zero, and the contraction index of a product with one contracted axis is
  that axis' coordinate. The lemma is stated for any dimension record whose operand indices are (row, contraction)
  on the left and (contraction, column) on the right, which the four coordinate hypotheses say.
-/
import Idealize.ShloMosaic.PureOps.Ideal.Laws
import Idealize.ShloMosaic.Lib.ValueIdx

noncomputable section

namespace Cert.LibMatmul

open Idealize.ShloMosaic Idealize.ShloMosaic.ValueIdx

/-- Entry (p, q) of a plain matrix product into the zero accumulator is the sum over the contracted axis. -/
theorem matmul_zero_ix2 {A K B : ℕ} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (prec : Option ContractPrecision)
    (l : FVec Ideal (⟨2, ![A, K]⟩ : Shape) φ₁) (r : FVec Ideal (⟨2, ![K, B]⟩ : Shape) φ₂) (p : Fin A) (q : Fin B) :
    FloatOps.matmul d prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.LibMatmul

end
-- ==== Proof.ColumnBroadcast.lean ====
/-
  A column broadcast read at an entry.

  An [a, 1] array broadcast to [a, b] holds, at (p, q), the one entry of row p of the operand: the keep-dimension
  column of per-row scalars spread along the row.
-/
import Idealize.ShloMosaic.Lib.ValueLayout

namespace Cert.ColumnBroadcast

open Idealize.ShloMosaic Idealize.ShloMosaic.ValueIdx

variable {α : Type}

/-- An `[a, 1]` array broadcast to `[a, b]` reads, at `(p, q)`, the operand's entry `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.ColumnBroadcast
-- ==== Proof.LayerEntry.lean ====
/-
  One entry of a mean-aggregation layer's output block, read off the body's operations.

  The body takes a block of summed messages msg [T, K], the column inv [T, 1] of reciprocal edge counts, a block of
  node features x [T, K], two weight matrices wl, wr [K, O] and a bias b [O], and computes
      max (((msg * inv) wl) + (x wr) + b, 0),
  the column spread along each row and the bias along each column, both products accumulated into zero.  Read at
  (p, q) this is
      max (sum_k (msg (p, k) * inv (p, 0)) * wl (k, q) + sum_k x (p, k) * wr (k, q) + b q, 0).
  Changes of float format are the identity on extended reals, so they do not appear on the right.
-/
import Idealize.ShloMosaic.PureOps.Ideal.Laws
import Idealize.ShloMosaic.Lib.ValueIdx
import Idealize.ShloMosaic.Lib.ValueLayout
import proofs.«173547_j64768106823755_2_alg».proof.Proof.LibMatmul
import proofs.«173547_j64768106823755_2_alg».proof.Proof.ColumnBroadcast

noncomputable section

namespace Cert.LayerEntry

open Idealize.ShloMosaic Idealize.ShloMosaic.ValueIdx

/-- The layer's entry (p, q) from its six operands, with the mean taken as a product with the reciprocal column. -/
def entry {T K O : ℕ} (msg : (⟨2, ![T, K]⟩ : Shape).Idx → EReal) (inv : (⟨2, ![T, 1]⟩ : Shape).Idx → EReal)
    (x : (⟨2, ![T, K]⟩ : Shape).Idx → EReal) (wl wr : (⟨2, ![K, O]⟩ : Shape).Idx → EReal)
    (b : (⟨1, ![O]⟩ : Shape).Idx → EReal) (p : Fin T) (q : Fin O) : EReal :=
  max ((∑ k : Fin K, (msg (ix2 p k) * inv (ix2 p (0 : Fin 1))) * wl (ix2 k q))
        + (∑ k : Fin K, x (ix2 p k) * wr (ix2 k q)) + b (ix1 q)) (Ideal.ofBits .f32 0x00000000#32)

/-- The body's operations, read at (p, q), are the layer's entry. -/
theorem body_apply {T K O : ℕ}
    (d : DotDims (⟨2, ![T, K]⟩ : Shape) (⟨2, ![K, O]⟩ : Shape) (⟨2, ![T, O]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (hTK : (⟨2, ![T, K]⟩ : Shape).ShapeCasts ⟨2, ![T, K]⟩) (hT1 : (⟨2, ![T, 1]⟩ : Shape).ShapeCasts ⟨2, ![T, 1]⟩)
    (hcol : (⟨2, ![T, 1]⟩ : Shape).Broadcasts ⟨2, ![T, K]⟩)
    (hO : (⟨1, ![O]⟩ : Shape).ShapeCasts ⟨2, ![1, O]⟩) (hrow : (⟨2, ![1, O]⟩ : Shape).Broadcasts ⟨2, ![T, O]⟩)
    (hlt : FTy.bits .bf16 < FTy.bits .f32)
    (msg : FVec Ideal (⟨2, ![T, K]⟩ : Shape) .f32) (inv : FVec Ideal (⟨2, ![T, 1]⟩ : Shape) .f32)
    (x : FVec Ideal (⟨2, ![T, K]⟩ : Shape) .bf16) (wl wr : FVec Ideal (⟨2, ![K, O]⟩ : Shape) .f32)
    (b : FVec Ideal (⟨1, ![O]⟩ : Shape) .f32) (p : Fin T) (q : Fin O) :
    maximumf
      (addf
        (addf
          (matmul d none
            (truncf .bf16 (mulf (shapeCast (⟨2, ![T, K]⟩ : Shape) msg hTK)
              (broadcastTo (⟨2, ![T, K]⟩ : Shape) (shapeCast (⟨2, ![T, 1]⟩ : Shape) inv hT1) hcol)) hlt)
            (truncf .bf16 wl hlt) (constant (F := Ideal) (⟨2, ![T, O]⟩ : Shape) .f32 0x00000000#32))
          (matmul d none (shapeCast (⟨2, ![T, K]⟩ : Shape) x hTK) (truncf .bf16 wr hlt)
            (constant (F := Ideal) (⟨2, ![T, O]⟩ : Shape) .f32 0x00000000#32)))
        (broadcastTo (⟨2, ![T, O]⟩ : Shape) (shapeCast (⟨2, ![1, O]⟩ : Shape) b hO) hrow))
      (broadcast (⟨2, ![T, O]⟩ : Shape) (Scalar.ofBits (F := Ideal) .f32 0x00000000#32)) (ix2 p q)
      = entry msg inv x wl wr b p q := by
  rw [maximumf_apply, addf_apply, addf_apply, broadcast_apply]
  rw [broadcastTo_1b_ab_apply, shapeCast_a_1a_apply]
  refine congrArg₂ max (congrArg₂ (· + ·) (congrArg₂ (· + ·) ?_ ?_) rfl) rfl
  · refine (Cert.LibMatmul.matmul_zero_ix2 d hr hs hl0 hl1 hr0 hr1 none _ _ p q).trans ?_
    refine Finset.sum_congr rfl fun k _ => ?_
    rw [truncf_apply, truncf_apply, mulf_apply, shapeCast_self, shapeCast_self,
      Cert.ColumnBroadcast.broadcastTo_a1_ab_apply]
  · refine (Cert.LibMatmul.matmul_zero_ix2 d hr hs hl0 hl1 hr0 hr1 none _ _ p q).trans ?_
    refine Finset.sum_congr rfl fun k _ => ?_
    rw [truncf_apply, shapeCast_self]

/-- The entry depends on its operands only through row p of the row operands, column q of the weights and entry q of
    the bias: operands that agree there, one set read at row p and the other at row r, give the same entry. -/
theorem entry_congr {T N K O : ℕ}
    (msg : (⟨2, ![T, K]⟩ : Shape).Idx → EReal) (inv : (⟨2, ![T, 1]⟩ : Shape).Idx → EReal)
    (x : (⟨2, ![T, K]⟩ : Shape).Idx → EReal) (wl wr : (⟨2, ![K, O]⟩ : Shape).Idx → EReal) (b : (⟨1, ![O]⟩ : Shape).Idx → EReal)
    (msg' : (⟨2, ![N, K]⟩ : Shape).Idx → EReal) (inv' : (⟨2, ![N, 1]⟩ : Shape).Idx → EReal)
    (x' : (⟨2, ![N, K]⟩ : Shape).Idx → EReal) (wl' wr' : (⟨2, ![K, O]⟩ : Shape).Idx → EReal) (b' : (⟨1, ![O]⟩ : Shape).Idx → EReal)
    (p : Fin T) (r : Fin N) (q : Fin O)
    (hmsg : ∀ k : Fin K, msg (ix2 p k) = msg' (ix2 r k)) (hinv : inv (ix2 p (0 : Fin 1)) = inv' (ix2 r (0 : Fin 1)))
    (hx : ∀ k : Fin K, x (ix2 p k) = x' (ix2 r k)) (hwl : ∀ k : Fin K, wl (ix2 k q) = wl' (ix2 k q))
    (hwr : ∀ k : Fin K, wr (ix2 k q) = wr' (ix2 k q)) (hb : b (ix1 q) = b' (ix1 q)) :
    entry msg inv x wl wr b p q = entry msg' inv' x' wl' wr' b' r q := by
  unfold entry
  rw [hinv, hb]
  refine congrArg₂ max (congrArg₂ (· + ·) (congrArg₂ (· + ·) ?_ ?_) rfl) rfl
  · exact Finset.sum_congr rfl fun k _ => by rw [hmsg k, hwl k]
  · exact Finset.sum_congr rfl fun k _ => by rw [hx k, hwr k]

end Cert.LayerEntry

end
-- ==== Proof.Layer2.lean ====
/-
  Layer 2's region: the whole output array as one function of the arrays the region finds.

  The region's grid has 25 points; point t stages rows [2000 t, 2000 (t + 1)) of the three row operands (the summed
  messages, the reciprocal-count column and the node features), the two whole weight matrices and the whole bias,
  and writes back rows [2000 t, 2000 (t + 1)) of the output.  Entry (p, q) of point t's block depends on row p of the row
  operands' blocks, that is on row 2000 t + p of their arrays, and the 25 row blocks tile the 50000 rows.  So the array
  ends holding, at (r, q),
      max (sum_k (msg (r, k) * inv (r, 0)) * wl (k, q) + sum_k x (r, k) * wr (k, q) + b q, 0).
-/
import proofs.«173547_j64768106823755_2_alg».proof.Proof.Gen.KernelIdeal.Frame
import proofs.«173547_j64768106823755_2_alg».proof.Proof.LayerEntry

set_option maxRecDepth 16384

noncomputable section

namespace Cert.KernelIdeal.Layer2

open Cert.KernelIdeal Cert.KernelIdeal.Gen Idealize.ShloMosaic Idealize.ShloMosaic.TcCoe Idealize.SL.Sem
open Idealize.ShloMosaic.ValueIdx
open Idealize.ShloMosaic.Pipeline (Dat Cfg Window)

/-! ## The body's matrix products: where each operand is read -/

/-- The dimension record of the body's two products: rows by the contracted axis, times the contracted axis by columns. -/
abbrev D := dot_S2000x256_S256x16_S2000x16_1_0_0_1_n_n

theorem lhs_row (i : S2000x16.Idx) (q : D.contr.Idx) : (D.lhsIdx i q (0 : Fin 2)).val = (i (0 : Fin 2)).val := by
  unfold DotDims.lhsIdx
  rw [dif_neg (show ¬(0 : Fin S2000x256.rank) ∈ D.lhsBatch by decide), dif_pos (show (0 : Fin S2000x256.rank) ∈ D.lhsNonContracting by decide)]
  rfl
theorem lhs_contr (i : S2000x16.Idx) (q : D.contr.Idx) : (D.lhsIdx i q (1 : Fin 2)).val = (q ⟨0, by decide⟩).val :=
  D.lhsIdx_val_of_single rfl i q
theorem rhs_contr (i : S2000x16.Idx) (q : D.contr.Idx) : (D.rhsIdx i q (0 : Fin 2)).val = (q ⟨0, by decide⟩).val :=
  D.rhsIdx_val_of_single rfl i q
theorem rhs_col (i : S2000x16.Idx) (q : D.contr.Idx) : (D.rhsIdx i q (1 : Fin 2)).val = (i (1 : Fin 2)).val := by
  unfold DotDims.rhsIdx
  rw [dif_neg (show ¬(1 : Fin S256x16.rank) ∈ D.rhsBatch by decide), dif_pos (show (1 : Fin S256x16.rank) ∈ D.rhsNonContracting by decide)]
  rfl

/-- The body's stored value at (p, q) of the block is the layer's entry of the six loaded blocks. -/
theorem payload_apply (x0 : FVec Ideal S2000x256 .f32) (x1 : FVec Ideal S2000x1 .f32) (x2 : FVec Ideal S2000x256 .bf16)
    (x3 x4 : FVec Ideal S256x16 .f32) (x5 : FVec Ideal S16 .f32) (p : Fin 2000) (q : Fin 16) :
    k1_pay1 (F := Ideal) x0 x1 x2 x3 x4 x5 (ix2 p q) = Cert.LayerEntry.entry x0 x1 x2 x3 x4 x5 p q := by
  unfold k1_pay1
  exact Cert.LayerEntry.body_apply D rfl rfl lhs_row lhs_contr rhs_contr rhs_col _ _ _ _ _ _ x0 x1 x2 x3 x4 x5 p q

/-! ## From the blocks to the array -/

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The layer's output array from its six operand arrays: entry (r, q) is the layer's entry at row r, column q. -/
def out (msg : S50000x256.Idx → EReal) (inv : S50000x1.Idx → EReal) (x : S50000x256.Idx → EReal)
    (wl wr : S256x16.Idx → EReal) (b : S16.Idx → EReal) : S50000x16.Idx → EReal :=
  fun i => Cert.LayerEntry.entry (T := 50000) (K := 256) (O := 16) msg inv x wl wr b (i 0) (i 1)

/-- The index maps over the grid: the row operands and the output move together, block row t at point t, and stay in
    block column 0; the weights and the bias are always at block 0. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- What point t writes back is block t of the layer's output array of the arrays the region finds. -/
theorem flushed_eq (c : Dev nD) (t : Fin cfg1.N) :
    (dat1 V c).flushed 6 t = ((cfg1.win 6).blk t).view.read (Elt Ideal)
      (out (V c main_call0_v36) (V c main_call0_v12) (V c main_call0_v25) (V c main_arg6) (V c main_arg7) (V c main_arg8)) := by
  show (cfg1.win 6).cut (grid1.coords t) ((dat1 V c).after 6 t) = _
  rw [after1_6]
  unfold out1_6
  rw [View.canon_unit_zero zero2]
  simp only [View.ld_unit_zero (S := S2000x256) zero2, View.ld_unit_zero (S := S2000x1) zero2,
    View.ld_unit_zero (S := S256x16) zero2, View.ld_unit_zero (S := S16) zero1]
  obtain ⟨e00, e01, e10, e11, e20, e21, e30, e31, e40, e41, e50, e60, e61⟩ := index_facts t
  have ht : t.val < 25 := by have h := t.isLt; have hN : cfg1.N = 25 := N_1; omega
  funext j
  have hp : (j 0).val < 2000 := (j 0).isLt
  have hq : (j 1).val < 16 := (j 1).isLt
  have hx : (win1 6).xinj (grid1.coords t) j = ix2 (⟨(j 0).val, hp⟩ : Fin 2000) (⟨(j 1).val, hq⟩ : Fin 16) :=
    funext fun a => by match a with
      | ⟨0, _⟩ => rfl
      | ⟨1, _⟩ => rfl
  have hemb : ((cfg1.win 6).blk t).view.emb j
      = ix2 (⟨t.val * 2000 + (j 0).val, by omega⟩ : Fin 50000) (⟨(j 1).val, hq⟩ : Fin 16) :=
    funext fun a => Fin.ext (by
      match a with
      | ⟨0, _⟩ => show win1_6.index t (0 : Fin 2) * 2000 + 1 * (j 0).val = t.val * 2000 + (j 0).val; omega
      | ⟨1, _⟩ => show win1_6.index t (1 : Fin 2) * 16 + 1 * (j 1).val = (j 1).val; omega)
  show k1_pay1 (F := Ideal) _ _ _ _ _ _ ((win1 6).xinj (grid1.coords t) j) = out _ _ _ _ _ _ (((cfg1.win 6).blk t).view.emb j)
  rw [hx, hemb]
  refine (payload_apply (iblk1 V c 0 t) (iblk1 V c 1 t) (iblk1 V c 2 t) (iblk1 V c 3 t) (iblk1 V c 4 t) (iblk1 V c 5 t) _ _).trans ?_
  refine Cert.LayerEntry.entry_congr _ _ _ _ _ _ _ _ _ _ _ _ _ _ _ (fun k => ?_) ?_ (fun k => ?_) (fun k => ?_) (fun k => ?_) ?_
  · show V c (Pipeline.arrRef spec1 0) (((cfg1.win 0).blk t).view.emb _) = V c main_call0_v36 _
    refine congrArg _ (funext fun a => Fin.ext ?_)
    match a with
    | ⟨0, _⟩ => show win1_0.index t (0 : Fin 2) * 2000 + 1 * (j 0).val = t.val * 2000 + (j 0).val; omega
    | ⟨1, _⟩ => show win1_0.index t (1 : Fin 2) * 256 + 1 * k.val = k.val; omega
  · show V c (Pipeline.arrRef spec1 1) (((cfg1.win 1).blk t).view.emb _) = V c main_call0_v12 _
    refine congrArg _ (funext fun a => Fin.ext ?_)
    match a with
    | ⟨0, _⟩ => show win1_1.index t (0 : Fin 2) * 2000 + 1 * (j 0).val = t.val * 2000 + (j 0).val; omega
    | ⟨1, _⟩ => show win1_1.index t (1 : Fin 2) * 1 + 1 * 0 = 0; omega
  · show V c (Pipeline.arrRef spec1 2) (((cfg1.win 2).blk t).view.emb _) = V c main_call0_v25 _
    refine congrArg _ (funext fun a => Fin.ext ?_)
    match a with
    | ⟨0, _⟩ => show win1_2.index t (0 : Fin 2) * 2000 + 1 * (j 0).val = t.val * 2000 + (j 0).val; omega
    | ⟨1, _⟩ => show win1_2.index t (1 : Fin 2) * 256 + 1 * k.val = k.val; omega
  · show V c (Pipeline.arrRef spec1 3) (((cfg1.win 3).blk t).view.emb _) = V c main_arg6 _
    refine congrArg _ (funext fun a => Fin.ext ?_)
    match a with
    | ⟨0, _⟩ => show win1_3.index t (0 : Fin 2) * 256 + 1 * k.val = k.val; omega
    | ⟨1, _⟩ => show win1_3.index t (1 : Fin 2) * 16 + 1 * (j 1).val = (j 1).val; omega
  · show V c (Pipeline.arrRef spec1 4) (((cfg1.win 4).blk t).view.emb _) = V c main_arg7 _
    refine congrArg _ (funext fun a => Fin.ext ?_)
    match a with
    | ⟨0, _⟩ => show win1_4.index t (0 : Fin 2) * 256 + 1 * k.val = k.val; omega
    | ⟨1, _⟩ => show win1_4.index t (1 : Fin 2) * 16 + 1 * (j 1).val = (j 1).val; omega
  · show V c (Pipeline.arrRef spec1 5) (((cfg1.win 5).blk t).view.emb _) = V c main_arg8 _
    refine congrArg _ (funext fun a => Fin.ext ?_)
    match a with
    | ⟨0, _⟩ => show win1_5.index t (0 : Fin 1) * 16 + 1 * (j 1).val = (j 1).val; omega

/-- An index of the output array is in point t's block iff its row is among the block's rows and its column among the
    block's columns. -/
theorem mem_block (t : Fin cfg1.N) (i : S50000x16.Idx) :
    i ∈ ((cfg1.win 6).blk t).view.set ↔ ∀ a : Fin 2, win1_6.index t a * S2000x16.size a ≤ (i a).val
      ∧ (i a).val < win1_6.index t a * S2000x16.size a + S2000x16.size a := by
  show i ∈ ((View.whole main_call0_v37).slice (win1_6.rect t)).set ↔ _
  rw [View.set_slice_whole, Rect.mem_set_unit]
  exact Iff.rfl

/-- Every entry of the output array is written back by some point: row r by point r / 2000. -/
theorem covered (i : S50000x16.Idx) :
    ∃ t : Fin cfg1.N, (cfg1.win 6).flush t = true ∧ i ∈ ((cfg1.win 6).blk t).view.set := by
  have hi0 : (i 0).val < 50000 := (i 0).isLt
  have hi1 : (i 1).val < 16 := (i 1).isLt
  have hN : (i 0).val / 2000 < cfg1.N := by rw [show cfg1.N = 25 from N_1]; omega
  obtain ⟨-, -, -, -, -, -, -, -, -, -, -, e60, e61⟩ := index_facts ⟨(i 0).val / 2000, hN⟩
  refine ⟨⟨(i 0).val / 2000, hN⟩, flush1_6 _, ?_⟩
  rw [mem_block]
  intro a
  match a with
  | ⟨0, _⟩ =>
    show win1_6.index ⟨(i 0).val / 2000, hN⟩ (0 : Fin 2) * 2000 ≤ (i 0).val
      ∧ (i 0).val < win1_6.index ⟨(i 0).val / 2000, hN⟩ (0 : Fin 2) * 2000 + 2000
    rw [e60]; show (i 0).val / 2000 * 2000 ≤ (i 0).val ∧ (i 0).val < (i 0).val / 2000 * 2000 + 2000; omega
  | ⟨1, _⟩ =>
    show win1_6.index ⟨(i 0).val / 2000, hN⟩ (1 : Fin 2) * 16 ≤ (i 1).val
      ∧ (i 1).val < win1_6.index ⟨(i 0).val / 2000, hN⟩ (1 : Fin 2) * 16 + 16
    rw [e61]; omega

/-- The output array after the region: the layer's output of the arrays the region finds. -/
theorem final (c : Dev nD) : (dat1 V c).arrAt 6 cfg1.N
    = out (V c main_call0_v36) (V c main_call0_v12) (V c main_call0_v25) (V c main_arg6) (V c main_arg7) (V c main_arg8) :=
  (dat1 V c).arrAt_eq_of_cover 6 _ (fun t _ => flushed_eq V c t) covered

end Cert.KernelIdeal.Layer2

end
-- ==== Proof.Layer1.lean ====
/-
  Layer 1's region: the whole output array as one function of the arrays the region finds.

  The region's grid has 10 points; point t stages rows [5000 t, 5000 (t + 1)) of the three row operands (the summed
  messages, the reciprocal-count column and the node features), the two whole weight matrices and the whole bias,
  and writes back rows [5000 t, 5000 (t + 1)) of the output.  Entry (p, q) of point t's block depends on row p of the row
  operands' blocks, that is on row 5000 t + p of their arrays, and the 10 row blocks tile the 50000 rows.  So the array
  ends holding, at (r, q),
      max (sum_k (msg (r, k) * inv (r, 0)) * wl (k, q) + sum_k x (r, k) * wr (k, q) + b q, 0).
-/
import proofs.«173547_j64768106823755_2_alg».proof.Proof.Gen.KernelIdeal.Frame
import proofs.«173547_j64768106823755_2_alg».proof.Proof.LayerEntry

set_option maxRecDepth 16384

noncomputable section

namespace Cert.KernelIdeal.Layer1

open Cert.KernelIdeal Cert.KernelIdeal.Gen Idealize.ShloMosaic Idealize.ShloMosaic.TcCoe Idealize.SL.Sem
open Idealize.ShloMosaic.ValueIdx
open Idealize.ShloMosaic.Pipeline (Dat Cfg Window)

/-! ## The body's matrix products: where each operand is read -/

/-- The dimension record of the body's two products: rows by the contracted axis, times the contracted axis by columns. -/
abbrev D := dot_S5000x128_S128x256_S5000x256_1_0_0_1_n_n

theorem lhs_row (i : S5000x256.Idx) (q : D.contr.Idx) : (D.lhsIdx i q (0 : Fin 2)).val = (i (0 : Fin 2)).val := by
  unfold DotDims.lhsIdx
  rw [dif_neg (show ¬(0 : Fin S5000x128.rank) ∈ D.lhsBatch by decide), dif_pos (show (0 : Fin S5000x128.rank) ∈ D.lhsNonContracting by decide)]
  rfl
theorem lhs_contr (i : S5000x256.Idx) (q : D.contr.Idx) : (D.lhsIdx i q (1 : Fin 2)).val = (q ⟨0, by decide⟩).val :=
  D.lhsIdx_val_of_single rfl i q
theorem rhs_contr (i : S5000x256.Idx) (q : D.contr.Idx) : (D.rhsIdx i q (0 : Fin 2)).val = (q ⟨0, by decide⟩).val :=
  D.rhsIdx_val_of_single rfl i q
theorem rhs_col (i : S5000x256.Idx) (q : D.contr.Idx) : (D.rhsIdx i q (1 : Fin 2)).val = (i (1 : Fin 2)).val := by
  unfold DotDims.rhsIdx
  rw [dif_neg (show ¬(1 : Fin S128x256.rank) ∈ D.rhsBatch by decide), dif_pos (show (1 : Fin S128x256.rank) ∈ D.rhsNonContracting by decide)]
  rfl

/-- The body's stored value at (p, q) of the block is the layer's entry of the six loaded blocks. -/
theorem payload_apply (x0 : FVec Ideal S5000x128 .f32) (x1 : FVec Ideal S5000x1 .f32) (x2 : FVec Ideal S5000x128 .bf16)
    (x3 x4 : FVec Ideal S128x256 .f32) (x5 : FVec Ideal S256 .f32) (p : Fin 5000) (q : Fin 256) :
    k0_pay1 (F := Ideal) x0 x1 x2 x3 x4 x5 (ix2 p q) = Cert.LayerEntry.entry x0 x1 x2 x3 x4 x5 p q := by
  unfold k0_pay1
  exact Cert.LayerEntry.body_apply D rfl rfl lhs_row lhs_contr rhs_contr rhs_col _ _ _ _ _ _ x0 x1 x2 x3 x4 x5 p q

/-! ## From the blocks to the array -/

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The layer's output array from its six operand arrays: entry (r, q) is the layer's entry at row r, column q. -/
def out (msg : S50000x128.Idx → EReal) (inv : S50000x1.Idx → EReal) (x : S50000x128.Idx → EReal)
    (wl wr : S128x256.Idx → EReal) (b : S256.Idx → EReal) : S50000x256.Idx → EReal :=
  fun i => Cert.LayerEntry.entry (T := 50000) (K := 128) (O := 256) msg inv x wl wr b (i 0) (i 1)

/-- The index maps over the grid: the row operands and the output move together, block row t at point t, and stay in
    block column 0; the weights and the bias are always at block 0. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- What point t writes back is block t of the layer's output array of the arrays the region finds. -/
theorem flushed_eq (c : Dev nD) (t : Fin cfg0.N) :
    (dat0 V c).flushed 6 t = ((cfg0.win 6).blk t).view.read (Elt Ideal)
      (out (V c main_call0_v24) (V c main_call0_v12) (V c main_call0_v13) (V c main_arg3) (V c main_arg4) (V c main_arg5)) := by
  show (cfg0.win 6).cut (grid0.coords t) ((dat0 V c).after 6 t) = _
  rw [after0_6]
  unfold out0_6
  rw [View.canon_unit_zero zero2]
  simp only [View.ld_unit_zero (S := S5000x128) zero2, View.ld_unit_zero (S := S5000x1) zero2,
    View.ld_unit_zero (S := S128x256) zero2, View.ld_unit_zero (S := S256) zero1]
  obtain ⟨e00, e01, e10, e11, e20, e21, e30, e31, e40, e41, e50, e60, e61⟩ := index_facts t
  have ht : t.val < 10 := by have h := t.isLt; have hN : cfg0.N = 10 := N_0; omega
  funext j
  have hp : (j 0).val < 5000 := (j 0).isLt
  have hq : (j 1).val < 256 := (j 1).isLt
  have hx : (win0 6).xinj (grid0.coords t) j = ix2 (⟨(j 0).val, hp⟩ : Fin 5000) (⟨(j 1).val, hq⟩ : Fin 256) :=
    funext fun a => by match a with
      | ⟨0, _⟩ => rfl
      | ⟨1, _⟩ => rfl
  have hemb : ((cfg0.win 6).blk t).view.emb j
      = ix2 (⟨t.val * 5000 + (j 0).val, by omega⟩ : Fin 50000) (⟨(j 1).val, hq⟩ : Fin 256) :=
    funext fun a => Fin.ext (by
      match a with
      | ⟨0, _⟩ => show win0_6.index t (0 : Fin 2) * 5000 + 1 * (j 0).val = t.val * 5000 + (j 0).val; omega
      | ⟨1, _⟩ => show win0_6.index t (1 : Fin 2) * 256 + 1 * (j 1).val = (j 1).val; omega)
  show k0_pay1 (F := Ideal) _ _ _ _ _ _ ((win0 6).xinj (grid0.coords t) j) = out _ _ _ _ _ _ (((cfg0.win 6).blk t).view.emb j)
  rw [hx, hemb]
  refine (payload_apply (iblk0 V c 0 t) (iblk0 V c 1 t) (iblk0 V c 2 t) (iblk0 V c 3 t) (iblk0 V c 4 t) (iblk0 V c 5 t) _ _).trans ?_
  refine Cert.LayerEntry.entry_congr _ _ _ _ _ _ _ _ _ _ _ _ _ _ _ (fun k => ?_) ?_ (fun k => ?_) (fun k => ?_) (fun k => ?_) ?_
  · show V c (Pipeline.arrRef spec0 0) (((cfg0.win 0).blk t).view.emb _) = V c main_call0_v24 _
    refine congrArg _ (funext fun a => Fin.ext ?_)
    match a with
    | ⟨0, _⟩ => show win0_0.index t (0 : Fin 2) * 5000 + 1 * (j 0).val = t.val * 5000 + (j 0).val; omega
    | ⟨1, _⟩ => show win0_0.index t (1 : Fin 2) * 128 + 1 * k.val = k.val; omega
  · show V c (Pipeline.arrRef spec0 1) (((cfg0.win 1).blk t).view.emb _) = V c main_call0_v12 _
    refine congrArg _ (funext fun a => Fin.ext ?_)
    match a with
    | ⟨0, _⟩ => show win0_1.index t (0 : Fin 2) * 5000 + 1 * (j 0).val = t.val * 5000 + (j 0).val; omega
    | ⟨1, _⟩ => show win0_1.index t (1 : Fin 2) * 1 + 1 * 0 = 0; omega
  · show V c (Pipeline.arrRef spec0 2) (((cfg0.win 2).blk t).view.emb _) = V c main_call0_v13 _
    refine congrArg _ (funext fun a => Fin.ext ?_)
    match a with
    | ⟨0, _⟩ => show win0_2.index t (0 : Fin 2) * 5000 + 1 * (j 0).val = t.val * 5000 + (j 0).val; omega
    | ⟨1, _⟩ => show win0_2.index t (1 : Fin 2) * 128 + 1 * k.val = k.val; omega
  · show V c (Pipeline.arrRef spec0 3) (((cfg0.win 3).blk t).view.emb _) = V c main_arg3 _
    refine congrArg _ (funext fun a => Fin.ext ?_)
    match a with
    | ⟨0, _⟩ => show win0_3.index t (0 : Fin 2) * 128 + 1 * k.val = k.val; omega
    | ⟨1, _⟩ => show win0_3.index t (1 : Fin 2) * 256 + 1 * (j 1).val = (j 1).val; omega
  · show V c (Pipeline.arrRef spec0 4) (((cfg0.win 4).blk t).view.emb _) = V c main_arg4 _
    refine congrArg _ (funext fun a => Fin.ext ?_)
    match a with
    | ⟨0, _⟩ => show win0_4.index t (0 : Fin 2) * 128 + 1 * k.val = k.val; omega
    | ⟨1, _⟩ => show win0_4.index t (1 : Fin 2) * 256 + 1 * (j 1).val = (j 1).val; omega
  · show V c (Pipeline.arrRef spec0 5) (((cfg0.win 5).blk t).view.emb _) = V c main_arg5 _
    refine congrArg _ (funext fun a => Fin.ext ?_)
    match a with
    | ⟨0, _⟩ => show win0_5.index t (0 : Fin 1) * 256 + 1 * (j 1).val = (j 1).val; omega

/-- An index of the output array is in point t's block iff its row is among the block's rows and its column among the
    block's columns. -/
theorem mem_block (t : Fin cfg0.N) (i : S50000x256.Idx) :
    i ∈ ((cfg0.win 6).blk t).view.set ↔ ∀ a : Fin 2, win0_6.index t a * S5000x256.size a ≤ (i a).val
      ∧ (i a).val < win0_6.index t a * S5000x256.size a + S5000x256.size a := by
  show i ∈ ((View.whole main_call0_v25).slice (win0_6.rect t)).set ↔ _
  rw [View.set_slice_whole, Rect.mem_set_unit]
  exact Iff.rfl

/-- Every entry of the output array is written back by some point: row r by point r / 5000. -/
theorem covered (i : S50000x256.Idx) :
    ∃ t : Fin cfg0.N, (cfg0.win 6).flush t = true ∧ i ∈ ((cfg0.win 6).blk t).view.set := by
  have hi0 : (i 0).val < 50000 := (i 0).isLt
  have hi1 : (i 1).val < 256 := (i 1).isLt
  have hN : (i 0).val / 5000 < cfg0.N := by rw [show cfg0.N = 10 from N_0]; omega
  obtain ⟨-, -, -, -, -, -, -, -, -, -, -, e60, e61⟩ := index_facts ⟨(i 0).val / 5000, hN⟩
  refine ⟨⟨(i 0).val / 5000, hN⟩, flush0_6 _, ?_⟩
  rw [mem_block]
  intro a
  match a with
  | ⟨0, _⟩ =>
    show win0_6.index ⟨(i 0).val / 5000, hN⟩ (0 : Fin 2) * 5000 ≤ (i 0).val
      ∧ (i 0).val < win0_6.index ⟨(i 0).val / 5000, hN⟩ (0 : Fin 2) * 5000 + 5000
    rw [e60]; show (i 0).val / 5000 * 5000 ≤ (i 0).val ∧ (i 0).val < (i 0).val / 5000 * 5000 + 5000; omega
  | ⟨1, _⟩ =>
    show win0_6.index ⟨(i 0).val / 5000, hN⟩ (1 : Fin 2) * 256 ≤ (i 1).val
      ∧ (i 1).val < win0_6.index ⟨(i 0).val / 5000, hN⟩ (1 : Fin 2) * 256 + 256
    rw [e61]; omega

/-- The output array after the region: the layer's output of the arrays the region finds. -/
theorem final (c : Dev nD) : (dat0 V c).arrAt 6 cfg0.N
    = out (V c main_call0_v24) (V c main_call0_v12) (V c main_call0_v13) (V c main_arg3) (V c main_arg4) (V c main_arg5) :=
  (dat0 V c).arrAt_eq_of_cover 6 _ (fun t _ => flushed_eq V c t) covered

end Cert.KernelIdeal.Layer1

end
-- ==== Proof.LibTypedRef.lean ====
/-
  A typed reference's two transports cancel.

  A host operation stated over typed references moves each operand from its buffer's contents to contents at the
  value's type, and the result back.  The two moves are transports along one equation of types, in opposite
  directions, so one after the other is the identity; this holds for any typed reference, with nothing about which
  buffer it is.
-/
import Idealize.ShloMosaic.Lib.StableHlo

namespace Cert.LibTypedRef

open Idealize.ShloMosaic Idealize.ShloMosaic.StableHlo

variable {sig : RefSig} {Val : EltTy → Type} {T : BufTy}

/-- Contents moved to the buffer's type and back are the contents. -/
theorem ofBuf_toBuf (x : TRef sig T) (v : T.Contents Val) : x.ofBuf (x.toBuf v) = v := by
  obtain ⟨r, h, h1, h2⟩ := x
  subst h
  rfl

/-- Contents of the buffer moved to the value's type and back are the contents. -/
theorem toBuf_ofBuf (x : TRef sig T) (v : x.ref.ty.Contents Val) : x.toBuf (x.ofBuf v) = v := by
  obtain ⟨r, h, h1, h2⟩ := x
  subst h
  rfl

end Cert.LibTypedRef
-- ==== Proof.Stretch0.lean ====
/-
  The host operations before the first layer's region, read against the reference's stages.

  Before the first region the program computes, from the edge list and the node features: the summed messages
  (a gather of the features along the edge sources, scatter-added along the edge targets), the edge counts (ones
  scatter-added along the edge targets), their maximum with one, the reciprocal of that, spread to a column, and
  the features rounded to a narrower float format, which on extended reals is the features themselves.  The
  reference computes the same gather, scatter-adds and maximum, so these arrays are the reference's stages, and the
  column is the reciprocal of the reference's clamped count.  The weights and biases are not written.
-/
import proofs.«173547_j64768106823755_2_alg».proof.Proof.Gen.KernelIdeal.Frame
import proofs.«173547_j64768106823755_2_alg».proof.Proof.Gen.ReferenceIdeal.Read
import proofs.«173547_j64768106823755_2_alg».proof.Proof.LibTypedRef

set_option maxRecDepth 16384

noncomputable section

namespace Cert.KernelIdeal.Stretch0

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ) (ρ : Dev nD → PrngReg)

/-- The reciprocal column of a count array, as the program spells it: one over the maximum of the count and one, per
    node, as an [N, 1] array. -/
def recipCol (cnt : S50000.Idx → EReal) : S50000x1.Idx → EReal :=
  broadcastInDim S50000x1 ![0] bcast_S50000_S50000x1_0
    (Host.divf (F := Ideal) (φ := .f32) (broadcastInDim S50000 ![] bcast_S_S50000 (constant (F := Ideal) S_ .f32 0x3F800000#32))
      (maximumf cnt (broadcastInDim S50000 ![] bcast_S_S50000 (constant (F := Ideal) S_ .f32 0x3F800000#32))))

/-- The column at row r is one over the maximum of the count at r and one. -/
theorem recipCol_apply (cnt : S50000.Idx → EReal) (r : Fin 50000) :
    recipCol cnt (ix2 r (0 : Fin 1))
      = Ideal.div (Ideal.ofBits .f32 0x3F800000#32) (max (cnt (ix1 r)) (Ideal.ofBits .f32 0x3F800000#32)) := by
  unfold recipCol
  refine (broadcastInDim_apply _ bcast_S50000_S50000x1_0 _ (ix2 r (0 : Fin 1)) (ix1 r) (fun a => match a with
    | ⟨0, _⟩ => by show r.val = if (50000 : Nat) = 1 then 0 else r.val; rw [if_neg (by decide)])).trans ?_
  rfl

/-- The column the first region reads is the reciprocal column of the reference's edge count. -/
theorem recips (c : Dev nD) : V1 m ρ c main_call0_v12
    = recipCol (Cert.ReferenceIdeal.Read.val_main_v17 (F := Ideal) (m ((c : Thread nD τ).loc main_arg1))) := by
  show StableHlo.after hostOps0 (W0 m ρ c) (Proc.devRef .tc main_call0_v12) = _
  after_results_simp
  simp only [Cert.LibTypedRef.ofBuf_toBuf]
  generalize hs : Host.scatterAdd (F := Ideal) scatter_S50000_S600000x1_S600000_n_0_0_1 _ _ _ = s
  have hs' : s = Cert.ReferenceIdeal.Read.val_main_v17 (F := Ideal) (m ((c : Thread nD τ).loc main_arg1)) := hs.symm.trans (by rfl)
  refine Eq.trans (b := recipCol s) ?_ (by rw [hs'])
  rfl

/-- The column the first region reads, at row r, is one over the maximum of node r's edge count and one: the
    reciprocal of the reference's clamped count. -/
theorem recips_apply (c : Dev nD) (r : Fin 50000) :
    V1 m ρ c main_call0_v12 (ix2 r (0 : Fin 1))
      = Ideal.div (Ideal.ofBits .f32 0x3F800000#32)
          (max (Cert.ReferenceIdeal.Read.val_main_v17 (F := Ideal) (m ((c : Thread nD τ).loc main_arg1)) (ix1 r)) (Ideal.ofBits .f32 0x3F800000#32)) := by
  rw [recips m ρ c]
  exact recipCol_apply _ r

/-- The summed messages the first region reads are the reference's. -/
theorem msgs (c : Dev nD) : V1 m ρ c main_call0_v24
    = Cert.ReferenceIdeal.Read.val_main_v13 (F := Ideal) (m ((c : Thread nD τ).loc main_arg0)) (m ((c : Thread nD τ).loc main_arg1)) := by
  show StableHlo.after hostOps0 (W0 m ρ c) (Proc.devRef .tc main_call0_v24) = _
  after_results_simp <;> rfl

/-- The rounded features are the features. -/
theorem feats (c : Dev nD) : V1 m ρ c main_call0_v13 = m ((c : Thread nD τ).loc main_arg0) := by
  show StableHlo.after hostOps0 (W0 m ρ c) (Proc.devRef .tc main_call0_v13) = _
  after_results_simp <;> rfl

/-- The edge sources and targets, as the later stretches read them. -/
theorem srcs (c : Dev nD) : W1 m ρ c (Proc.devRef .tc main_call0_v1)
    = Cert.ReferenceIdeal.Read.val_main_v1 (F := Ideal) (m ((c : Thread nD τ).loc main_arg1)) := by
  show StableHlo.after hostOps0 (W0 m ρ c) (Proc.devRef .tc main_call0_v1) = _
  after_results_simp <;> rfl
theorem tgts (c : Dev nD) : W1 m ρ c (Proc.devRef .tc main_call0_v3)
    = Cert.ReferenceIdeal.Read.val_main_v3 (F := Ideal) (m ((c : Thread nD τ).loc main_arg1)) := by
  show StableHlo.after hostOps0 (W0 m ρ c) (Proc.devRef .tc main_call0_v3) = _
  after_results_simp <;> rfl

/-- No operation of the stretch writes an argument. -/
theorem arg2 (c : Dev nD) : W1 m ρ c (Proc.devRef .tc main_arg2) = m ((c : Thread nD τ).loc main_arg2) := by
  show StableHlo.after hostOps0 (W0 m ρ c) (Proc.devRef .tc main_arg2) = _
  after_results_simp <;> rfl
theorem arg3 (c : Dev nD) : W1 m ρ c (Proc.devRef .tc main_arg3) = m ((c : Thread nD τ).loc main_arg3) := by
  show StableHlo.after hostOps0 (W0 m ρ c) (Proc.devRef .tc main_arg3) = _
  after_results_simp <;> rfl
theorem arg4 (c : Dev nD) : W1 m ρ c (Proc.devRef .tc main_arg4) = m ((c : Thread nD τ).loc main_arg4) := by
  show StableHlo.after hostOps0 (W0 m ρ c) (Proc.devRef .tc main_arg4) = _
  after_results_simp <;> rfl
theorem arg5 (c : Dev nD) : W1 m ρ c (Proc.devRef .tc main_arg5) = m ((c : Thread nD τ).loc main_arg5) := by
  show StableHlo.after hostOps0 (W0 m ρ c) (Proc.devRef .tc main_arg5) = _
  after_results_simp <;> rfl
theorem arg6 (c : Dev nD) : W1 m ρ c (Proc.devRef .tc main_arg6) = m ((c : Thread nD τ).loc main_arg6) := by
  show StableHlo.after hostOps0 (W0 m ρ c) (Proc.devRef .tc main_arg6) = _
  after_results_simp <;> rfl
theorem arg7 (c : Dev nD) : W1 m ρ c (Proc.devRef .tc main_arg7) = m ((c : Thread nD τ).loc main_arg7) := by
  show StableHlo.after hostOps0 (W0 m ρ c) (Proc.devRef .tc main_arg7) = _
  after_results_simp <;> rfl
theorem arg8 (c : Dev nD) : W1 m ρ c (Proc.devRef .tc main_arg8) = m ((c : Thread nD τ).loc main_arg8) := by
  show StableHlo.after hostOps0 (W0 m ρ c) (Proc.devRef .tc main_arg8) = _
  after_results_simp <;> rfl

end Cert.KernelIdeal.Stretch0

end
-- ==== Proof.MeanLaw.lean ====
/-
  The one algebraic law that joins the two programs.

  One program divides each row of the summed messages by the row's clamped edge count c = max(count, 1); the other
  multiplies the row by the reciprocal 1 / c computed once.  On the extended reals a quotient by a nonzero c is the
  product with the inverse of c, and 1 / c is that inverse, so the two agree for every numerator, the infinities
  included: no finiteness of the numerator is used.  The clamped count is at least one, hence never zero.
-/
import Idealize.ShloMosaic.PureOps.Ideal
import Idealize.ShloMosaic.Lib.IdealHost

noncomputable section

namespace Cert.MeanLaw

open Idealize.ShloMosaic

/-- Multiplying by the reciprocal of a nonzero extended real is dividing by it. -/
theorem mul_recip (x c : EReal) (hc : c ≠ 0) : x * Ideal.div 1 c = Ideal.div x c := by
  rw [Ideal.div, if_neg hc, Ideal.div, if_neg hc, one_mul]

/-- A maximum with one is never zero. -/
theorem max_one_ne_zero (x : EReal) : max x (Ideal.ofBits .f32 0x3F800000#32) ≠ 0 := by
  rw [Ideal.ofBits_one_f32]
  have h : (0 : EReal) < max x 1 := lt_of_lt_of_le zero_lt_one (le_max_right x 1)
  exact ne_of_gt h

/-- The mean of the messages, both ways: the product with the reciprocal of the clamped count is the quotient by it. -/
theorem mean_eq (x cnt : EReal) :
    x * Ideal.div (Ideal.ofBits .f32 0x3F800000#32) (max cnt (Ideal.ofBits .f32 0x3F800000#32))
      = Ideal.div x (max cnt (Ideal.ofBits .f32 0x3F800000#32)) := by
  have h := mul_recip x _ (max_one_ne_zero cnt)
  rw [Ideal.ofBits_one_f32] at h ⊢
  exact h

end Cert.MeanLaw

end
-- ==== Proof.RefLayers.lean ====
/-
  The reference's two layers, entry by entry.

  Each layer of the reference divides the summed messages by the clamped edge count, spread along the row, multiplies
  by the left weights, adds the input features times the right weights and the bias, and takes the maximum with
  zero.  Read at (p, q), the two products are sums over the contracted axis, the spread count is the count of row
  p, and the quotient by it is the product with its reciprocal.  The second layer counts the edges again, with the
  same operations on the same edge list, so its count is the first layer's.
-/
import proofs.«173547_j64768106823755_2_alg».proof.Proof.Gen.ReferenceIdeal.Read
import proofs.«173547_j64768106823755_2_alg».proof.Proof.LayerEntry
import proofs.«173547_j64768106823755_2_alg».proof.Proof.MeanLaw

set_option maxRecDepth 16384

noncomputable section

namespace Cert.ReferenceIdeal.Layers

open Cert.ReferenceIdeal Cert.ReferenceIdeal.Gen Cert.ReferenceIdeal.Read
open Idealize.ShloMosaic Idealize.ShloMosaic.TcCoe Idealize.SL.Sem Idealize.ShloMosaic.ValueIdx

/-- The reference's layer 1 at (p, q) is the layer's entry of its summed messages, any column holding the reciprocal
    of the clamped edge count, its input features, weights and bias: the reference's quotient by the clamped count,
    entry by entry, is the product with that reciprocal. -/
theorem layer1 (x0 : (⟨S50000x128, .f32⟩ : BufTy).Contents (Elt Ideal)) (x1 : (⟨S2x600000, .i32⟩ : BufTy).Contents (Elt Ideal)) (x3 x4 : (⟨S128x256, .f32⟩ : BufTy).Contents (Elt Ideal)) (x5 : (⟨S256, .f32⟩ : BufTy).Contents (Elt Ideal)) (inv : (⟨S50000x1, .f32⟩ : BufTy).Contents (Elt Ideal))
    (hinv : ∀ r : Fin 50000, inv (ix2 r (0 : Fin 1)) = Ideal.div (Ideal.ofBits .f32 0x3F800000#32)
      (max (val_main_v17 (F := Ideal) x1 (ix1 r)) (Ideal.ofBits .f32 0x3F800000#32)))
    (p : Fin 50000) (q : Fin 256) :
    val_main_v29 (F := Ideal) x0 x1 x3 x4 x5 (ix2 p q)
      = Cert.LayerEntry.entry (val_main_v13 (F := Ideal) x0 x1) inv x0 x3 x4 x5 p q := by
  have el : ∀ k : Fin 128, lidx_main_v23 (ix2 p q) k = ix2 p k := fun k => funext fun a => Fin.ext (by
    match a with
    | ⟨0, _⟩ => rfl
    | ⟨1, _⟩ => rfl)
  have er : ∀ k : Fin 128, ridx_main_v23 (ix2 p q) k = ix2 k q := fun k => funext fun a => Fin.ext (by
    match a with
    | ⟨0, _⟩ => rfl
    | ⟨1, _⟩ => rfl)
  have el' : ∀ k : Fin 128, lidx_main_v24 (ix2 p q) k = ix2 p k := fun k => funext fun a => Fin.ext (by
    match a with
    | ⟨0, _⟩ => rfl
    | ⟨1, _⟩ => rfl)
  have er' : ∀ k : Fin 128, ridx_main_v24 (ix2 p q) k = ix2 k q := fun k => funext fun a => Fin.ext (by
    match a with
    | ⟨0, _⟩ => rfl
    | ⟨1, _⟩ => rfl)
  have eb : idx_main_v26 (idx_main_v27 (ix2 p q)) = ix1 q := funext fun a => Fin.ext (by
    match a with
    | ⟨0, _⟩ => rfl)
  have ec : ∀ k : Fin 128, idx_main_v20 (idx_main_v21 (ix2 p k)) = ix1 p := fun k => funext fun a => Fin.ext (by
    match a with
    | ⟨0, _⟩ => rfl)
  rw [val_main_v29_apply, val_main_v28_apply, val_main_v25_apply, val_main_v23_apply, val_main_v24_apply,
    val_main_v27_apply, val_main_v26_apply, val_main_call0_v0_apply, val_main_call0_cst_apply, eb]
  unfold Cert.LayerEntry.entry
  refine congrArg₂ max (congrArg₂ (· + ·) (congrArg₂ (· + ·) ?_ ?_) rfl) rfl
  · refine Finset.sum_congr rfl fun k _ => ?_
    rw [el k, er k, val_main_v22_apply, val_main_v21_apply, val_main_v20_apply, ec k, val_main_v19_apply,
      val_main_v18_apply, val_main_cst_3_apply, hinv p]
    simp only [Ideal.hostDivf_def, Ideal.maximumf_def, Ideal.ofBits_def]
    rw [Cert.MeanLaw.mean_eq]
  · exact Finset.sum_congr rfl fun k _ => by rw [el' k, er' k]

/-- The second layer's edge count is the first layer's: the same scatter-add of ones along the same edge targets. -/
theorem count_again (x1 : (⟨S2x600000, .i32⟩ : BufTy).Contents (Elt Ideal)) : val_main_v47 (F := Ideal) x1 = val_main_v17 (F := Ideal) x1 := rfl

/-- The reference's layer 2 at (p, q) is the layer's entry of its summed messages, any column holding the reciprocal
    of the clamped edge count, its input features, weights and bias: the reference's quotient by the clamped count,
    entry by entry, is the product with that reciprocal. -/
theorem layer2 (x0 : (⟨S50000x128, .f32⟩ : BufTy).Contents (Elt Ideal)) (x1 : (⟨S2x600000, .i32⟩ : BufTy).Contents (Elt Ideal)) (x3 x4 : (⟨S128x256, .f32⟩ : BufTy).Contents (Elt Ideal)) (x5 : (⟨S256, .f32⟩ : BufTy).Contents (Elt Ideal)) (x6 x7 : (⟨S256x16, .f32⟩ : BufTy).Contents (Elt Ideal)) (x8 : (⟨S16, .f32⟩ : BufTy).Contents (Elt Ideal)) (inv : (⟨S50000x1, .f32⟩ : BufTy).Contents (Elt Ideal))
    (hinv : ∀ r : Fin 50000, inv (ix2 r (0 : Fin 1)) = Ideal.div (Ideal.ofBits .f32 0x3F800000#32)
      (max (val_main_v17 (F := Ideal) x1 (ix1 r)) (Ideal.ofBits .f32 0x3F800000#32)))
    (p : Fin 50000) (q : Fin 16) :
    val_main_v59 (F := Ideal) x0 x1 x3 x4 x5 x6 x7 x8 (ix2 p q)
      = Cert.LayerEntry.entry (val_main_v43 (F := Ideal) x0 x1 x3 x4 x5) inv (val_main_v29 (F := Ideal) x0 x1 x3 x4 x5) x6 x7 x8 p q := by
  have el : ∀ k : Fin 256, lidx_main_v53 (ix2 p q) k = ix2 p k := fun k => funext fun a => Fin.ext (by
    match a with
    | ⟨0, _⟩ => rfl
    | ⟨1, _⟩ => rfl)
  have er : ∀ k : Fin 256, ridx_main_v53 (ix2 p q) k = ix2 k q := fun k => funext fun a => Fin.ext (by
    match a with
    | ⟨0, _⟩ => rfl
    | ⟨1, _⟩ => rfl)
  have el' : ∀ k : Fin 256, lidx_main_v54 (ix2 p q) k = ix2 p k := fun k => funext fun a => Fin.ext (by
    match a with
    | ⟨0, _⟩ => rfl
    | ⟨1, _⟩ => rfl)
  have er' : ∀ k : Fin 256, ridx_main_v54 (ix2 p q) k = ix2 k q := fun k => funext fun a => Fin.ext (by
    match a with
    | ⟨0, _⟩ => rfl
    | ⟨1, _⟩ => rfl)
  have eb : idx_main_v56 (idx_main_v57 (ix2 p q)) = ix1 q := funext fun a => Fin.ext (by
    match a with
    | ⟨0, _⟩ => rfl)
  have ec : ∀ k : Fin 256, idx_main_v50 (idx_main_v51 (ix2 p k)) = ix1 p := fun k => funext fun a => Fin.ext (by
    match a with
    | ⟨0, _⟩ => rfl)
  rw [val_main_v59_apply, val_main_v58_apply, val_main_v55_apply, val_main_v53_apply, val_main_v54_apply,
    val_main_v57_apply, val_main_v56_apply, val_main_call1_v0_apply, val_main_call1_cst_apply, eb]
  unfold Cert.LayerEntry.entry
  refine congrArg₂ max (congrArg₂ (· + ·) (congrArg₂ (· + ·) ?_ ?_) rfl) rfl
  · refine Finset.sum_congr rfl fun k _ => ?_
    rw [el k, er k, val_main_v52_apply, val_main_v51_apply, val_main_v50_apply, ec k, val_main_v49_apply, count_again,
      val_main_v48_apply, val_main_cst_9_apply, hinv p]
    simp only [Ideal.hostDivf_def, Ideal.maximumf_def, Ideal.ofBits_def]
    rw [Cert.MeanLaw.mean_eq]
  · exact Finset.sum_congr rfl fun k _ => by rw [el' k, er' k]

end Cert.ReferenceIdeal.Layers

end
-- ==== Proof.Boundary1.lean ====
/-
  After the first region: the first hidden layer.

  The first region's output array, as the later segments find it, is the layer's output of the arrays the region
  found: the reference's summed messages, the reciprocal column of the reference's clamped edge count, the node
  features, and the first layer's weights and bias.  Entry by entry that is the reference's first layer after its
  maximum with zero: the reference divides by the clamped count where the region multiplies by its reciprocal.
-/
import proofs.«173547_j64768106823755_2_alg».proof.Proof.Layer1
import proofs.«173547_j64768106823755_2_alg».proof.Proof.Stretch0
import proofs.«173547_j64768106823755_2_alg».proof.Proof.RefLayers

set_option maxRecDepth 16384

noncomputable section

namespace Cert.KernelIdeal.Boundary1

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ) (ρ : Dev nD → PrngReg)

/-- The first region leaves the reference's first hidden layer in its output array. -/
theorem hidden (c : Dev nD) : W2 m ρ c (Proc.devRef .tc main_call0_v25)
    = Cert.ReferenceIdeal.Read.val_main_v29 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W2_arr m ρ c 6).trans ?_
  rw [Cert.KernelIdeal.Layer1.final (V1 m ρ) c]
  refine funext fun (i : S50000x256.Idx) => ?_
  obtain ⟨p, q, rfl⟩ : ∃ (p : Fin 50000) (q : Fin 256), i = ix2 p q := ⟨i 0, i 1, eq_ix2 i⟩
  show Cert.LayerEntry.entry (T := 50000) (K := 128) (O := 256) (V1 m ρ c main_call0_v24) (V1 m ρ c main_call0_v12)
      (V1 m ρ c main_call0_v13) (W1 m ρ c (Proc.devRef .tc main_arg3)) (W1 m ρ c (Proc.devRef .tc main_arg4))
      (W1 m ρ c (Proc.devRef .tc main_arg5)) p q = _
  rw [Stretch0.msgs m ρ c, Stretch0.feats m ρ c, Stretch0.arg3 m ρ c, Stretch0.arg4 m ρ c, Stretch0.arg5 m ρ c]
  exact (Cert.ReferenceIdeal.Layers.layer1 _ _ _ _ _ (V1 m ρ c main_call0_v12)
    (fun r => Stretch0.recips_apply m ρ c r) p q).symm

end Cert.KernelIdeal.Boundary1

end
-- ==== Proof.Stretch1.lean ====
/-
  The host operations between the two regions, read against the reference's stages.

  Between the regions the program sums, for every node, the first hidden layer's rows of the nodes that send it an
  edge: a gather of the hidden layer along the edge sources (a negative source wrapped by the node count first),
  scatter-added along the edge targets into zeros.  The hidden layer is stored in a narrower float format and widened
  again after the gather, which on extended reals changes nothing.  The reference does the same gather and
  scatter-add on its own hidden layer and its own copies of the edge sources and targets.  Nothing else the second
  region reads is written here.
-/
import proofs.«173547_j64768106823755_2_alg».proof.Proof.Boundary1
import proofs.«173547_j64768106823755_2_alg».proof.Proof.LibTypedRef

set_option maxRecDepth 16384

noncomputable section

namespace Cert.KernelIdeal.Stretch1

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ) (ρ : Dev nD → PrngReg)

/-- The neighbour sum of a hidden layer along an edge list, as the program spells it. -/
def aggregate (h : S50000x256.Idx → EReal) (src tgt : S600000.Idx → BitVec 32) : S50000x256.Idx → EReal :=
  Host.scatterAdd (F := Ideal) (φ := .f32) scatter_S50000x256_S600000x1_S600000x256_1_0_0_1
    (broadcastInDim S50000x256 ![] bcast_S_S50000x256 (constant (F := Ideal) S_ .f32 0x00000000#32))
    (broadcastInDim S600000x1 ![0] bcast_S600000_S600000x1_0 tgt)
    (extf (F := Ideal) (φ := .bf16) .f32
      (Host.gather gather_S50000x256_S600000x1_S600000x256_1_0_n_n_0_1_1256 h
        (broadcastInDim S600000x1 ![0] bcast_S600000_S600000x1_0
          (select (cmpi .slt src (broadcastInDim S600000 ![] bcast_S_S600000 (constantI S_ 32 0#32)))
            (addi src (broadcastInDim S600000 ![] bcast_S_S600000 (constantI S_ 32 50000#32))) src)))
      bitsLt_bf16_f32)

/-- Widening a float format is the identity on extended reals. -/
theorem widen_eq {s : Shape} (x : s.Idx → EReal) (h : FTy.bits .bf16 < FTy.bits .f32) :
    extf (F := Ideal) (φ := .bf16) .f32 x h = x := rfl

/-- The neighbour sum of the reference's hidden layer along the reference's edge sources and targets is the
    reference's second summed messages. -/
theorem aggregate_ref (x0 : (⟨S50000x128, .f32⟩ : BufTy).Contents (Elt Ideal)) (x1 : (⟨S2x600000, .i32⟩ : BufTy).Contents (Elt Ideal)) (x3 x4 : (⟨S128x256, .f32⟩ : BufTy).Contents (Elt Ideal))
    (x5 : (⟨S256, .f32⟩ : BufTy).Contents (Elt Ideal)) :
    aggregate (Cert.ReferenceIdeal.Read.val_main_v29 (F := Ideal) x0 x1 x3 x4 x5) (Cert.ReferenceIdeal.Read.val_main_v1 (F := Ideal) x1)
      (Cert.ReferenceIdeal.Read.val_main_v3 (F := Ideal) x1) = Cert.ReferenceIdeal.Read.val_main_v43 (F := Ideal) x0 x1 x3 x4 x5 := by
  unfold aggregate
  rw [widen_eq]
  rfl

/-- The summed messages the second region reads are the neighbour sum of what the first region left. -/
theorem msgs_spec (c : Dev nD) : V3 m ρ c main_call0_v36
    = aggregate (W2 m ρ c (Proc.devRef .tc main_call0_v25)) (W2 m ρ c (Proc.devRef .tc main_call0_v1))
        (W2 m ρ c (Proc.devRef .tc main_call0_v3)) := by
  show StableHlo.after hostOps1 (W2 m ρ c) (Proc.devRef .tc main_call0_v36) = _
  after_results_simp
  simp only [Cert.LibTypedRef.ofBuf_toBuf]
  generalize W2 m ρ c (Proc.devRef .tc main_call0_v25) = a
  generalize W2 m ρ c (Proc.devRef .tc main_call0_v1) = s
  generalize W2 m ρ c (Proc.devRef .tc main_call0_v3) = t
  rfl

/-- The edge sources and targets are still the reference's. -/
theorem srcs (c : Dev nD) : W2 m ρ c (Proc.devRef .tc main_call0_v1)
    = Cert.ReferenceIdeal.Read.val_main_v1 (F := Ideal) (m ((c : Thread nD τ).loc main_arg1)) :=
  (W2_of_ne m ρ c main_call0_v1 (by decide)).trans (Stretch0.srcs m ρ c)
theorem tgts (c : Dev nD) : W2 m ρ c (Proc.devRef .tc main_call0_v3)
    = Cert.ReferenceIdeal.Read.val_main_v3 (F := Ideal) (m ((c : Thread nD τ).loc main_arg1)) :=
  (W2_of_ne m ρ c main_call0_v3 (by decide)).trans (Stretch0.tgts m ρ c)

/-- The summed messages the second region reads are the reference's. -/
theorem msgs (c : Dev nD) : V3 m ρ c main_call0_v36 = Cert.ReferenceIdeal.Read.val_main_v43 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  rw [msgs_spec m ρ c, Boundary1.hidden m ρ c, srcs m ρ c, tgts m ρ c]
  exact aggregate_ref _ _ _ _ _

/-- What the second region reads besides: the reciprocal column and the hidden layer as the first region's exit
    left them, the second layer's weights and bias as launched. -/
theorem recips (c : Dev nD) : V3 m ρ c main_call0_v12 = V1 m ρ c main_call0_v12 := by
  show StableHlo.after hostOps1 (W2 m ρ c) (Proc.devRef .tc main_call0_v12) = _
  after_results_simp
  exact (W2_arr m ρ c 1).trans (((dat0 (V1 m ρ) c).arrAt_in 1 rfl _).trans (A_eq0 (V1 m ρ) c 1))
theorem hidden (c : Dev nD) : V3 m ρ c main_call0_v25 = Cert.ReferenceIdeal.Read.val_main_v29 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps1 (W2 m ρ c) (Proc.devRef .tc main_call0_v25) = _
  after_results_simp
  exact Boundary1.hidden m ρ c
theorem arg2 (c : Dev nD) : W3 m ρ c (Proc.devRef .tc main_arg2) = (m ((c : Thread nD τ).loc main_arg2)) := by
  show StableHlo.after hostOps1 (W2 m ρ c) (Proc.devRef .tc main_arg2) = _
  after_results_simp
  exact (W2_of_ne m ρ c main_arg2 (by decide)).trans (Stretch0.arg2 m ρ c)
theorem arg6 (c : Dev nD) : W3 m ρ c (Proc.devRef .tc main_arg6) = (m ((c : Thread nD τ).loc main_arg6)) := by
  show StableHlo.after hostOps1 (W2 m ρ c) (Proc.devRef .tc main_arg6) = _
  after_results_simp
  exact (W2_of_ne m ρ c main_arg6 (by decide)).trans (Stretch0.arg6 m ρ c)
theorem arg7 (c : Dev nD) : W3 m ρ c (Proc.devRef .tc main_arg7) = (m ((c : Thread nD τ).loc main_arg7)) := by
  show StableHlo.after hostOps1 (W2 m ρ c) (Proc.devRef .tc main_arg7) = _
  after_results_simp
  exact (W2_of_ne m ρ c main_arg7 (by decide)).trans (Stretch0.arg7 m ρ c)
theorem arg8 (c : Dev nD) : W3 m ρ c (Proc.devRef .tc main_arg8) = (m ((c : Thread nD τ).loc main_arg8)) := by
  show StableHlo.after hostOps1 (W2 m ρ c) (Proc.devRef .tc main_arg8) = _
  after_results_simp
  exact (W2_of_ne m ρ c main_arg8 (by decide)).trans (Stretch0.arg8 m ρ c)

end Cert.KernelIdeal.Stretch1

end
-- ==== Proof.Boundary2.lean ====
/-
  After the second region: the second hidden layer.

  The second region's output array, as the last stretch finds it, is the layer's output of the arrays the region
  found: the reference's second summed messages, the same reciprocal column as before, the first hidden layer, and
  the second layer's weights and bias.  Entry by entry that is the reference's second layer after its maximum with
  zero; the reference counts the edges again, with the same result.
-/
import proofs.«173547_j64768106823755_2_alg».proof.Proof.Layer2
import proofs.«173547_j64768106823755_2_alg».proof.Proof.Stretch1

set_option maxRecDepth 16384

noncomputable section

namespace Cert.KernelIdeal.Boundary2

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ) (ρ : Dev nD → PrngReg)

/-- The second region leaves the reference's second hidden layer in its output array. -/
theorem output (c : Dev nD) : W4 m ρ c (Proc.devRef .tc main_call0_v37)
    = Cert.ReferenceIdeal.Read.val_main_v59 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 6).trans ?_
  rw [Cert.KernelIdeal.Layer2.final (V3 m ρ) c]
  refine funext fun (i : S50000x16.Idx) => ?_
  obtain ⟨p, q, rfl⟩ : ∃ (p : Fin 50000) (q : Fin 16), i = ix2 p q := ⟨i 0, i 1, eq_ix2 i⟩
  show Cert.LayerEntry.entry (T := 50000) (K := 256) (O := 16) (V3 m ρ c main_call0_v36) (V3 m ρ c main_call0_v12)
      (V3 m ρ c main_call0_v25) (W3 m ρ c (Proc.devRef .tc main_arg6)) (W3 m ρ c (Proc.devRef .tc main_arg7))
      (W3 m ρ c (Proc.devRef .tc main_arg8)) p q = _
  rw [Stretch1.msgs m ρ c, Stretch1.recips m ρ c, Stretch1.hidden m ρ c, Stretch1.arg6 m ρ c, Stretch1.arg7 m ρ c,
    Stretch1.arg8 m ρ c]
  exact (Cert.ReferenceIdeal.Layers.layer2 _ _ _ _ _ _ _ _ (V1 m ρ c main_call0_v12)
    (fun r => Stretch0.recips_apply m ρ c r) p q).symm

end Cert.KernelIdeal.Boundary2

end
-- ==== Proof.Stretch2.lean ====
/-
  The host operations after the second region: pooling and the logarithm of the softmax.

  After the second region the program sums the second hidden layer's rows graph by graph (a scatter-add along the
  graph index of each node), counts each graph's nodes the same way, divides each graph's sum by the maximum of its
  count and one, and takes the logarithm of the softmax along each row: subtract the row's maximum, then subtract
  the logarithm of the sum of the exponentials.  The reference applies the same operations to its second hidden
  layer and the same graph indices, so the two results are one function of equal arrays.
-/
import proofs.«173547_j64768106823755_2_alg».proof.Proof.Boundary2
import proofs.«173547_j64768106823755_2_alg».proof.Proof.LibTypedRef

set_option maxRecDepth 16384

noncomputable section

namespace Cert.KernelIdeal.Stretch2

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ) (ρ : Dev nD → PrngReg)

/-- The mean of a node array's rows graph by graph, as the program spells it: the rows' sum per graph over the
    maximum of the graph's node count and one. -/
def pooled (h : S50000x16.Idx → EReal) (b : S50000.Idx → BitVec 32) : S64x16.Idx → EReal :=
  Host.divf (F := Ideal) (φ := .f32)
    (Host.scatterAdd (F := Ideal) (φ := .f32) scatter_S64x16_S50000x1_S50000x16_1_0_0_1
      (broadcastInDim S64x16 ![] bcast_S_S64x16 (constant (F := Ideal) S_ .f32 0x00000000#32))
      (broadcastInDim S50000x1 ![0] bcast_S50000_S50000x1_0 b) h)
    (broadcastInDim S64x16 ![0, 1] bcast_S64x1_S64x16_0_1
      (broadcastInDim S64x1 ![0] bcast_S64_S64x1_0
        (maximumf
          (Host.scatterAdd (F := Ideal) (φ := .f32) scatter_S64_S50000x1_S50000_n_0_0_1
            (broadcastInDim S64 ![] bcast_S_S64 (constant (F := Ideal) S_ .f32 0x00000000#32))
            (broadcastInDim S50000x1 ![0] bcast_S50000_S50000x1_0 b)
            (broadcastInDim S50000 ![] bcast_S_S50000 (constant (F := Ideal) S_ .f32 0x3F800000#32)))
          (broadcastInDim S64 ![] bcast_S_S64 (constant (F := Ideal) S_ .f32 0x3F800000#32)))))

/-- A [64, 16] array with each row's maximum subtracted. -/
def shifted (g : S64x16.Idx → EReal) : S64x16.Idx → EReal :=
  subf (F := Ideal) (φ := .f32) g
    (broadcastInDim S64x16 ![0, 1] bcast_S64x1_S64x16_0_1
      (broadcastInDim S64x1 ![0] bcast_S64_S64x1_0
        (maximumf (broadcastInDim S64 ![] bcast_S_S64 (constant (F := Ideal) S_ .f32 0xFF800000#32))
          (Host.reduce (α := Ideal .f32) (FloatOps.maximumf (F := Ideal) (φ := .f32)) g (constant (F := Ideal) S_ .f32 0xFF800000#32)
            reducesTo_S64x16_S64_d1 h_S_))))

/-- The logarithm of the softmax along each row, as the program spells it. -/
def logSoftmax (g : S64x16.Idx → EReal) : S64x16.Idx → EReal :=
  subf (F := Ideal) (φ := .f32) (shifted g)
    (broadcastInDim S64x16 ![0, 1] bcast_S64x1_S64x16_0_1
      (Host.log (F := Ideal) (φ := .f32)
        (broadcastInDim S64x1 ![0] bcast_S64_S64x1_0
          (Host.reduceAdd (F := Ideal) (φ := .f32) (Host.exp (F := Ideal) (φ := .f32) (shifted g))
            (constant (F := Ideal) S_ .f32 0x00000000#32) reducesTo_S64x16_S64_d1 h_S_))))

/-- The reference's result is the logarithm of the softmax of its second hidden layer pooled along its graph indices. -/
theorem readout_ref (x0 : (⟨S50000x128, .f32⟩ : BufTy).Contents (Elt Ideal)) (x1 : (⟨S2x600000, .i32⟩ : BufTy).Contents (Elt Ideal)) (x2 : (⟨S50000, .i32⟩ : BufTy).Contents (Elt Ideal))
    (x3 x4 : (⟨S128x256, .f32⟩ : BufTy).Contents (Elt Ideal)) (x5 : (⟨S256, .f32⟩ : BufTy).Contents (Elt Ideal)) (x6 x7 : (⟨S256x16, .f32⟩ : BufTy).Contents (Elt Ideal)) (x8 : (⟨S16, .f32⟩ : BufTy).Contents (Elt Ideal)) :
    logSoftmax (pooled (Cert.ReferenceIdeal.Read.val_main_v59 (F := Ideal) x0 x1 x3 x4 x5 x6 x7 x8) x2)
      = Cert.ReferenceIdeal.Read.val_main_v72 (F := Ideal) x0 x1 x2 x3 x4 x5 x6 x7 x8 := rfl

/-- The program's result is the logarithm of the softmax of what the second region left, pooled along the graph
    indices as the last stretch finds them. -/
theorem result_spec (c : Dev nD) : W5 m ρ c (Proc.devRef .tc main_v0)
    = logSoftmax (pooled (W4 m ρ c (Proc.devRef .tc main_call0_v37)) (W4 m ρ c (Proc.devRef .tc main_arg2))) := by
  show StableHlo.after hostOps2 (W4 m ρ c) (Proc.devRef .tc main_v0) = _
  after_results_simp
  simp only [Cert.LibTypedRef.ofBuf_toBuf]
  generalize W4 m ρ c (Proc.devRef .tc main_call0_v37) = a
  generalize W4 m ρ c (Proc.devRef .tc main_arg2) = b
  rfl

/-- The graph indices are as launched. -/
theorem batch (c : Dev nD) : W4 m ρ c (Proc.devRef .tc main_arg2) = (m ((c : Thread nD τ).loc main_arg2)) :=
  (W4_of_ne m ρ c main_arg2 (by decide)).trans (Stretch1.arg2 m ρ c)

/-- The program's result is the reference's. -/
theorem result (c : Dev nD) : W5 m ρ c (Proc.devRef .tc main_v0) = Cert.ReferenceIdeal.Read.val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [result_spec m ρ c, Boundary2.output m ρ c, batch m ρ c]
  exact readout_ref _ _ _ _ _ _ _ _ _

end Cert.KernelIdeal.Stretch2

end
-- ==== Proof.lean ====
/-
  A two-layer mean-aggregation graph network with graph pooling and a row-wise logarithm of the softmax: the kernel
  program against its reference, on the extended reals.

  Both programs compute, for node features x, an edge list, graph indices, and two layers' weights and biases:
    msg1 = the sum over incoming edges of the source node's features,   c = max (edge count, 1),
    h1   = max ((msg1 / c) Wl1 + x Wr1 + b1, 0),
    msg2 = the sum over incoming edges of the source node's row of h1,
    h2   = max ((msg2 / c) Wl2 + h1 Wr2 + b2, 0),
  then the mean of h2's rows over each graph and the logarithm of the softmax of each graph's row.
  The reference divides the summed messages by c; the kernel program computes 1 / c once and multiplies by it inside
  each layer's region, where the rows are processed block by block.  On the extended reals a quotient by a nonzero
  c is the product with 1 / c, for every numerator, so no finiteness of the inputs is needed; a change of float format
  is the identity; a matrix product accumulated into zero is the sum over the contracted axis; and the row blocks
  tile the rows.  The gathers, scatter-adds, pooling and softmax are the same operations in both programs, applied
  to arrays shown equal, so they are never opened.

  The frames are the generated ones (the reference's is its generated run with the result dropped); nothing was
  rewritten between the kernel and its idealization, so that claim is trivial; the value claim runs the idealized
  kernel program segment by segment (KernelRun), reads each boundary's arrays as the reference's stages (Stretch0,
  Boundary1, Stretch1, Boundary2, Stretch2) and meets the reference's generated run at the reference's result stage.
-/
import proofs.«173547_j64768106823755_2_alg».proof.Defs
import proofs.«173547_j64768106823755_2_alg».proof.Proof.Gen.Kernel
import proofs.«173547_j64768106823755_2_alg».proof.Proof.Gen.Kernel.Skeleton
import proofs.«173547_j64768106823755_2_alg».proof.Proof.Gen.Kernel.Launch
import proofs.«173547_j64768106823755_2_alg».proof.Proof.Gen.Kernel.Points
import proofs.«173547_j64768106823755_2_alg».proof.Proof.Gen.Kernel.Frame
import proofs.«173547_j64768106823755_2_alg».proof.Proof.Gen.KernelIdeal
import proofs.«173547_j64768106823755_2_alg».proof.Proof.Gen.KernelIdeal.Skeleton
import proofs.«173547_j64768106823755_2_alg».proof.Proof.Gen.KernelIdeal.Launch
import proofs.«173547_j64768106823755_2_alg».proof.Proof.Gen.KernelIdeal.Points
import proofs.«173547_j64768106823755_2_alg».proof.Proof.Gen.KernelIdeal.Frame
import proofs.«173547_j64768106823755_2_alg».proof.Proof.Gen.ReferenceIdeal
import proofs.«173547_j64768106823755_2_alg».proof.Proof.Gen.ReferenceIdeal.Run
import proofs.«173547_j64768106823755_2_alg».proof.Proof.Gen.ReferenceIdeal.Read
import proofs.«173547_j64768106823755_2_alg».proof.Proof.Gen.Pre_finite_inputs
import proofs.«173547_j64768106823755_2_alg».proof.Proof.KernelRun
import proofs.«173547_j64768106823755_2_alg».proof.Proof.Stretch2
import Idealize.ShloMosaic.Adequacy
import Idealize.ShloMosaic.Init

noncomputable section

namespace Cert.Proof

open Idealize.ShloMosaic Idealize.SL.Sem

/-- From memories that agree on the nine arguments both idealized programs run, and both end with the reference's
    result stage of the launch arrays in their result buffer: the kernel program by its segments read against the
    reference's stages, the reference by its generated run. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, (θ_run Cert.KernelIdeal.defs _ _).mono
    (fun r h c => ⟨(h c).1.trans (Cert.KernelIdeal.Stretch2.result m ρ c), (h c).2⟩)
    (Cert.KernelIdeal.ValueRun.run (F := Ideal) m ρ), ?_⟩
  refine (θ_run Cert.ReferenceIdeal.defs _ _).mono (fun r h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v72_eq, h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
